-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v133) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x128 : Shape := ⟨2, ![5000, 128]⟩
abbrev S1000x128 : Shape := ⟨2, ![1000, 128]⟩
abbrev S1000 : Shape := ⟨1, ![1000]⟩
abbrev S5000x5000 : Shape := ⟨2, ![5000, 5000]⟩
abbrev S200000 : Shape := ⟨1, ![200000]⟩
abbrev S_ : Shape := ⟨0, ![]⟩

class Facts : Prop where
  bcast_S_S5000x128 : S_.BroadcastsInDim S5000x128 (![] : Fin 0 → Fin S5000x128.rank)
  reducesTo_S5000x128_S_d0_1 : S5000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1000 : S_.BroadcastsInDim S1000 (![] : Fin 0 → Fin S1000.rank)
  reducesTo_S1000_S_d0 : S1000.ReducesTo [0] S_
  bcast_S_S5000x5000 : S_.BroadcastsInDim S5000x5000 (![] : Fin 0 → Fin S5000x5000.rank)
  reducesTo_S5000x5000_S_d0_1 : S5000x5000.ReducesTo [0, 1] S_

variable [Facts]

def fn_part3 {F : FTy → Type} [FloatOps F] (main_arg11 : FVec F S5000x5000 .f32) (main_v48 : IVec S_ 1) (main_v49 : FVec F S5000x5000 .f32) (main_v50 : FVec F S5000x5000 .f32) : IVec S_ 1 :=
  let main_v51 : IVec S5000x5000 1 := cmpf .olt main_v49 main_v50
  let main_c_19 : IVec S_ 1 := constantI S_ 1 1#1
  let main_v52 : IVec S_ 1 := (fun x v => Host.reduce IntOp.andi x v reducesTo_S5000x5000_S_d0_1 h_S_) main_v51 main_c_19
  let main_v53 : IVec S_ 1 := andi main_v48 main_v52
  let main_v54 : FVec F S5000x5000 .f32 := Host.absf main_arg11
  let main_cst_20 : FVec F S_ .f32 := constant S_ .f32 0x7F800000#32
  let main_v55 : FVec F S5000x5000 .f32 := broadcastInDim S5000x5000 ![] bcast_S_S5000x5000 main_cst_20
  let main_v56 : IVec S5000x5000 1 := cmpf .olt main_v54 main_v55
  let main_c_21 : IVec S_ 1 := constantI S_ 1 1#1
  let main_v57 : IVec S_ 1 := (fun x v => Host.reduce IntOp.andi x v reducesTo_S5000x5000_S_d0_1 h_S_) main_v56 main_c_21
  let main_v58 : IVec S_ 1 := andi main_v53 main_v57
  main_v58

def fn_part2 {F : FTy → Type} [FloatOps F] (main_arg7 : FVec F S5000x5000 .f32) (main_arg8 : FVec F S5000x5000 .f32) (main_arg9 : FVec F S5000x5000 .f32) (main_arg10 : FVec F S5000x5000 .f32) (main_arg11 : FVec F S5000x5000 .f32) (main_v33 : IVec S_ 1) : IVec S_ 1 :=
  let main_v34 : FVec F S5000x5000 .f32 := Host.absf main_arg7
  let main_cst_12 : FVec F S_ .f32 := constant S_ .f32 0x7F800000#32
  let main_v35 : FVec F S5000x5000 .f32 := broadcastInDim S5000x5000 ![] bcast_S_S5000x5000 main_cst_12
  let main_v36 : IVec S5000x5000 1 := cmpf .olt main_v34 main_v35
  let main_c_13 : IVec S_ 1 := constantI S_ 1 1#1
  let main_v37 : IVec S_ 1 := (fun x v => Host.reduce IntOp.andi x v reducesTo_S5000x5000_S_d0_1 h_S_) main_v36 main_c_13
  let main_v38 : IVec S_ 1 := andi main_v33 main_v37
  let main_v39 : FVec F S5000x5000 .f32 := Host.absf main_arg8
  let main_cst_14 : FVec F S_ .f32 := constant S_ .f32 0x7F800000#32
  let main_v40 : FVec F S5000x5000 .f32 := broadcastInDim S5000x5000 ![] bcast_S_S5000x5000 main_cst_14
  let main_v41 : IVec S5000x5000 1 := cmpf .olt main_v39 main_v40
  let main_c_15 : IVec S_ 1 := constantI S_ 1 1#1
  let main_v42 : IVec S_ 1 := (fun x v => Host.reduce IntOp.andi x v reducesTo_S5000x5000_S_d0_1 h_S_) main_v41 main_c_15
  let main_v43 : IVec S_ 1 := andi main_v38 main_v42
  let main_v44 : FVec F S5000x5000 .f32 := Host.absf main_arg9
  let main_cst_16 : FVec F S_ .f32 := constant S_ .f32 0x7F800000#32
  let main_v45 : FVec F S5000x5000 .f32 := broadcastInDim S5000x5000 ![] bcast_S_S5000x5000 main_cst_16
  let main_v46 : IVec S5000x5000 1 := cmpf .olt main_v44 main_v45
  let main_c_17 : IVec S_ 1 := constantI S_ 1 1#1
  let main_v47 : IVec S_ 1 := (fun x v => Host.reduce IntOp.andi x v reducesTo_S5000x5000_S_d0_1 h_S_) main_v46 main_c_17
  let main_v48 : IVec S_ 1 := andi main_v43 main_v47
  let main_v49 : FVec F S5000x5000 .f32 := Host.absf main_arg10
  let main_cst_18 : FVec F S_ .f32 := constant S_ .f32 0x7F800000#32
  let main_v50 : FVec F S5000x5000 .f32 := broadcastInDim S5000x5000 ![] bcast_S_S5000x5000 main_cst_18
  fn_part3 (F := F) main_arg11 main_v48 main_v49 main_v50

def fn_part1 {F : FTy → Type} [FloatOps F] (main_arg4 : FVec F S1000 .f32) (main_arg5 : FVec F S1000 .f32) (main_arg6 : FVec F S5000x5000 .f32) (main_arg7 : FVec F S5000x5000 .f32) (main_arg8 : FVec F S5000x5000 .f32) (main_arg9 : FVec F S5000x5000 .f32) (main_arg10 : FVec F S5000x5000 .f32) (main_arg11 : FVec F S5000x5000 .f32) (main_v13 : IVec S_ 1) (main_v16 : IVec S1000x128 1) : IVec S_ 1 :=
  let main_c_5 : IVec S_ 1 := constantI S_ 1 1#1
  let main_v17 : IVec S_ 1 := (fun x v => Host.reduce IntOp.andi x v reducesTo_S1000x128_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_v24 : FVec F S1000 .f32 := Host.absf main_arg5
  let main_cst_8 : FVec F S_ .f32 := constant S_ .f32 0x7F800000#32
  let main_v25 : FVec F S1000 .f32 := broadcastInDim S1000 ![] bcast_S_S1000 main_cst_8
  let main_v26 : IVec S1000 1 := cmpf .olt main_v24 main_v25
  let main_c_9 : IVec S_ 1 := constantI S_ 1 1#1
  let main_v27 : IVec S_ 1 := (fun x v => Host.reduce IntOp.andi x v reducesTo_S1000_S_d0 h_S_) main_v26 main_c_9
  let main_v28 : IVec S_ 1 := andi main_v23 main_v27
  let main_v29 : FVec F S5000x5000 .f32 := Host.absf main_arg6
  let main_cst_10 : FVec F S_ .f32 := constant S_ .f32 0x7F800000#32
  let main_v30 : FVec F S5000x5000 .f32 := broadcastInDim S5000x5000 ![] bcast_S_S5000x5000 main_cst_10
  let main_v31 : IVec S5000x5000 1 := cmpf .olt main_v29 main_v30
  let main_c_11 : IVec S_ 1 := constantI S_ 1 1#1
  let main_v32 : IVec S_ 1 := (fun x v => Host.reduce IntOp.andi x v reducesTo_S5000x5000_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S5000x128 .f32) (main_arg1 : FVec F S5000x128 .f32) (main_arg2 : FVec F S1000x128 .f32) (main_arg3 : FVec F S1000x128 .f32) (main_arg4 : FVec F S1000 .f32) (main_arg5 : FVec F S1000 .f32) (main_arg6 : FVec F S5000x5000 .f32) (main_arg7 : FVec F S5000x5000 .f32) (main_arg8 : FVec F S5000x5000 .f32) (main_arg9 : FVec F S5000x5000 .f32) (main_arg10 : FVec F S5000x5000 .f32) (main_arg11 : FVec F S5000x5000 .f32) (main_arg12 : IVec S200000 32) (main_arg13 : IVec S200000 32) (main_arg14 : IVec S200000 32) (main_arg15 : IVec S200000 32) (main_arg16 : IVec S200000 32) (main_arg17 : IVec S200000 32) : IVec S_ 1 :=
  let main_v0 : FVec F S5000x128 .f32 := Host.absf main_arg0
  let main_cst : FVec F S_ .f32 := constant S_ .f32 0x7F800000#32
  let main_v1 : FVec F S5000x128 .f32 := broadcastInDim S5000x128 ![] bcast_S_S5000x128 main_cst
  let main_v2 : IVec S5000x128 1 := cmpf .olt main_v0 main_v1
  let main_c : IVec S_ 1 := constantI S_ 1 1#1
  let main_v3 : IVec S_ 1 := (fun x v => Host.reduce IntOp.andi x v reducesTo_S5000x128_S_d0_1 h_S_) main_v2 main_c
  let main_v4 : FVec F S5000x128 .f32 := Host.absf main_arg1
  let main_cst_0 : FVec F S_ .f32 := constant S_ .f32 0x7F800000#32
  let main_v5 : FVec F S5000x128 .f32 := broadcastInDim S5000x128 ![] bcast_S_S5000x128 main_cst_0
  let main_v6 : IVec S5000x128 1 := cmpf .olt main_v4 main_v5
  let main_c_1 : IVec S_ 1 := constantI S_ 1 1#1
  let main_v7 : IVec S_ 1 := (fun x v => Host.reduce IntOp.andi x v reducesTo_S5000x128_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  let main_v14 : FVec F S1000x128 .f32 := Host.absf main_arg3
  let main_cst_4 : FVec F S_ .f32 := constant S_ .f32 0x7F800000#32
  let main_v15 : FVec F S1000x128 .f32 := broadcastInDim S1000x128 ![] bcast_S_S1000x128 main_cst_4
  let main_v16 : IVec S1000x128 1 := cmpf .olt main_v14 main_v15
  fn_part1 (F := F) main_arg4 main_arg5 main_arg6 main_arg7 main_arg8 main_arg9 main_arg10 main_arg11 main_v13 main_v16
-- ==== Kernel.lean ====
abbrev S5000x128 : Shape := ⟨2, ![5000, 128]⟩
abbrev S1000x128 : Shape := ⟨2, ![1000, 128]⟩
abbrev S1000 : Shape := ⟨1, ![1000]⟩
abbrev S5000x5000 : Shape := ⟨2, ![5000, 5000]⟩
abbrev S200000 : Shape := ⟨1, ![200000]⟩
abbrev S_ : Shape := ⟨0, ![]⟩
abbrev S200000x1 : Shape := ⟨2, ![200000, 1]⟩
abbrev S200000x128 : Shape := ⟨2, ![200000, 128]⟩
abbrev S200000x2 : Shape := ⟨2, ![200000, 2]⟩
abbrev S200x5000 : Shape := ⟨2, ![200, 5000]⟩

abbrev nBuf : Space → Nat
  | .hbm => 194
  | .vmem => 24
  | .smem => 0
  | _ => 0

abbrev hbmTy0_0 (i : Nat) : BufTy := match i % 128 with
  | 0 => ⟨S5000x128, .f32⟩
  | 1 => ⟨S5000x128, .f32⟩
  | 2 => ⟨S1000x128, .f32⟩
  | 3 => ⟨S1000x128, .f32⟩
  | 4 => ⟨S1000, .f32⟩
  | 5 => ⟨S1000, .f32⟩
  | 6 => ⟨S5000x5000, .f32⟩
  | 7 => ⟨S5000x5000, .f32⟩
  | 8 => ⟨S5000x5000, .f32⟩
  | 9 => ⟨S5000x5000, .f32⟩
  | 10 => ⟨S5000x5000, .f32⟩
  | 11 => ⟨S5000x5000, .f32⟩
  | 12 => ⟨S200000, .i32⟩
  | 13 => ⟨S200000, .i32⟩
  | 14 => ⟨S200000, .i32⟩
  | 15 => ⟨S200000, .i32⟩
  | 16 => ⟨S200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x128, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x128, .f32⟩
  | 45 => ⟨S200000x128, .f32⟩
  | 46 => ⟨S200000x128, .f32⟩
  | 47 => ⟨S200000x128, .f32⟩
  | 48 => ⟨S_, .f32⟩
  | 49 => ⟨S200000, .f32⟩
  | 50 => ⟨S_, .f32⟩
  | 51 => ⟨S200000, .f32⟩
  | 52 => ⟨S200000, .f32⟩
  | 53 => ⟨S_, .f32⟩
  | 54 => ⟨S200000, .f32⟩
  | 55 => ⟨S200000, .f32⟩
  | 56 => ⟨S_, .f32⟩
  | 57 => ⟨S5000x5000, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x1, .i32⟩
  | 74 => ⟨S200000x2, .i32⟩
  | 75 => ⟨S5000x5000, .f32⟩
  | 76 => ⟨S_, .f32⟩
  | 77 => ⟨S5000x5000, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000, .f32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x1, .i32⟩
  | 103 => ⟨S200000x2, .i32⟩
  | 104 => ⟨S5000x5000, .f32⟩
  | 105 => ⟨S5000x5000, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S200000x128, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S200000x128, .f32⟩
  | 124 => ⟨S_, .i32⟩
  | 125 => ⟨S200000, .i32⟩
  | 126 => ⟨S200000, .i1⟩
  | 127 => ⟨S_, .i32⟩
  | _ => ⟨S5000x128, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S200000x128, .f32⟩
  | 6 => ⟨S200000x128, .f32⟩
  | 7 => ⟨S200000x128, .f32⟩
  | 8 => ⟨S_, .f32⟩
  | 9 => ⟨S200000, .f32⟩
  | 10 => ⟨S_, .f32⟩
  | 11 => ⟨S200000, .f32⟩
  | 12 => ⟨S200000, .f32⟩
  | 13 => ⟨S_, .f32⟩
  | 14 => ⟨S200000, .f32⟩
  | 15 => ⟨S200000, .f32⟩
  | 16 => ⟨S_, .f32⟩
  | 17 => ⟨S5000x5000, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x1, .i32⟩
  | 34 => ⟨S200000x2, .i32⟩
  | 35 => ⟨S5000x5000, .f32⟩
  | 36 => ⟨S_, .f32⟩
  | 37 => ⟨S5000x5000, .f32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S200000, .f32⟩
  | 47 => ⟨S_, .i32⟩
  | 48 => ⟨S200000, .i32⟩
  | 49 => ⟨S200000, .i1⟩
  | 50 => ⟨S_, .i32⟩
  | 51 => ⟨S200000, .i32⟩
  | 52 => ⟨S200000, .i32⟩
  | 53 => ⟨S200000, .i32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x1, .i32⟩
  | 63 => ⟨S200000x2, .i32⟩
  | 64 => ⟨S5000x5000, .f32⟩
  | 65 => ⟨S5000x5000, .f32⟩
  | _ => ⟨S5000x128, .f32⟩

abbrev hbmTy (i : Nat) : BufTy := match i / 128 with
  | 0 => hbmTy0_0 i
  | 1 => hbmTy0_1 i
  | _ => ⟨S5000x128, .f32⟩

abbrev bufTy : (tb : Table) → Fin (tcTables nBuf tb) → BufTy
  | .hbm, ⟨i, _⟩ => hbmTy i
  | .local _ .vmem, ⟨0, _⟩ => ⟨S200x5000, .f32⟩
  | .local _ .vmem, ⟨1, _⟩ => ⟨S200x5000, .f32⟩
  | .local _ .vmem, ⟨2, _⟩ => ⟨S200x5000, .f32⟩
  | .local _ .vmem, ⟨3, _⟩ => ⟨S200x5000, .f32⟩
  | .local _ .vmem, ⟨4, _⟩ => ⟨S200x5000, .f32⟩
  | .local _ .vmem, ⟨5, _⟩ => ⟨S200x5000, .f32⟩
  | .local _ .vmem, ⟨6, _⟩ => ⟨S200x5000, .f32⟩
  | .local _ .vmem, ⟨7, _⟩ => ⟨S200x5000, .f32⟩
  | .local _ .vmem, ⟨8, _⟩ => ⟨S200x5000, .f32⟩
  | .local _ .vmem, ⟨9, _⟩ => ⟨S200x5000, .f32⟩
  | .local _ .vmem, ⟨10, _⟩ => ⟨S200x5000, .f32⟩
  | .local _ .vmem, ⟨11, _⟩ => ⟨S200x5000, .f32⟩
  | .local _ .vmem, ⟨12, _⟩ => ⟨S200x5000, .f32⟩
  | .local _ .vmem, ⟨13, _⟩ => ⟨S200x5000, .f32⟩
  | .local _ .vmem, ⟨14, _⟩ => ⟨S200x5000, .f32⟩
  | .local _ .vmem, ⟨15, _⟩ => ⟨S200x5000, .f32⟩
  | .local _ .vmem, ⟨16, _⟩ => ⟨S200x5000, .f32⟩
  | .local _ .vmem, ⟨17, _⟩ => ⟨S200x5000, .f32⟩
  | .local _ .vmem, ⟨18, _⟩ => ⟨S200x5000, .f32⟩
  | .local _ .vmem, ⟨19, _⟩ => ⟨S200x5000, .f32⟩
  | .local _ .vmem, ⟨20, _⟩ => ⟨S200x5000, .f32⟩
  | .local _ .vmem, ⟨21, _⟩ => ⟨S200x5000, .f32⟩
  | .local _ .vmem, ⟨22, _⟩ => ⟨S200x5000, .f32⟩
  | .local _ .vmem, ⟨23, _⟩ => ⟨S200x5000, .f32⟩
  | _, _ => ⟨S5000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_c_9 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_c_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_12 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_c_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_15 : Ref sig .tc := ⟨.hbm, 87, rfl⟩
abbrev main_v52 : Ref sig .tc := ⟨.hbm, 88, rfl⟩
abbrev main_v53 : Ref sig .tc := ⟨.hbm, 89, rfl⟩
abbrev main_c_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_17 : Ref sig .tc := ⟨.hbm, 94, rfl⟩
abbrev main_v57 : Ref sig .tc := ⟨.hbm, 95, rfl⟩
abbrev main_v58 : Ref sig .tc := ⟨.hbm, 96, rfl⟩
abbrev main_c_18 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_19 : Ref sig .tc := ⟨.hbm, 106, rfl⟩
abbrev main_v67 : Ref sig .tc := ⟨.hbm, 107, rfl⟩
abbrev main_v68 : Ref sig .tc := ⟨.hbm, 108, rfl⟩
abbrev main_c_20 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_21 : Ref sig .tc := ⟨.hbm, 115, rfl⟩
abbrev main_v74 : Ref sig .tc := ⟨.hbm, 116, rfl⟩
abbrev main_v75 : Ref sig .tc := ⟨.hbm, 117, rfl⟩
abbrev main_c_22 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_23 : Ref sig .tc := ⟨.hbm, 124, rfl⟩
abbrev main_v81 : Ref sig .tc := ⟨.hbm, 125, rfl⟩
abbrev main_v82 : Ref sig .tc := ⟨.hbm, 126, rfl⟩
abbrev main_c_24 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_25 : Ref sig .tc := ⟨.hbm, 136, rfl⟩
abbrev main_v91 : Ref sig .tc := ⟨.hbm, 137, rfl⟩
abbrev main_cst_26 : Ref sig .tc := ⟨.hbm, 138, rfl⟩
abbrev main_v92 : Ref sig .tc := ⟨.hbm, 139, rfl⟩
abbrev main_v93 : Ref sig .tc := ⟨.hbm, 140, rfl⟩
abbrev main_cst_27 : Ref sig .tc := ⟨.hbm, 141, rfl⟩
abbrev main_v94 : Ref sig .tc := ⟨.hbm, 142, rfl⟩
abbrev main_v95 : Ref sig .tc := ⟨.hbm, 143, rfl⟩
abbrev main_cst_28 : Ref sig .tc := ⟨.hbm, 144, rfl⟩
abbrev main_v96 : Ref sig .tc := ⟨.hbm, 145, rfl⟩
abbrev main_c_29 : Ref sig .tc := ⟨.hbm, 146, rfl⟩
abbrev main_v97 : Ref sig .tc := ⟨.hbm, 147, rfl⟩
abbrev main_v98 : Ref sig .tc := ⟨.hbm, 148, rfl⟩
abbrev main_c_30 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_31 : Ref sig .tc := ⟨.hbm, 153, rfl⟩
abbrev main_v102 : Ref sig .tc := ⟨.hbm, 154, rfl⟩
abbrev main_v103 : Ref sig .tc := ⟨.hbm, 155, rfl⟩
abbrev main_c_32 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_33 : Ref sig .tc := ⟨.hbm, 164, rfl⟩
abbrev main_v111 : Ref sig .tc := ⟨.hbm, 165, rfl⟩
abbrev main_c_34 : Ref sig .tc := ⟨.hbm, 166, rfl⟩
abbrev main_v112 : Ref sig .tc := ⟨.hbm, 167, rfl⟩
abbrev main_v113 : Ref sig .tc := ⟨.hbm, 168, rfl⟩
abbrev main_c_35 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_c_36 : Ref sig .tc := ⟨.hbm, 175, rfl⟩
abbrev main_v119 : Ref sig .tc := ⟨.hbm, 176, rfl⟩
abbrev main_v120 : Ref sig .tc := ⟨.hbm, 177, rfl⟩
abbrev main_c_37 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_c_38 : Ref sig .tc := ⟨.hbm, 182, rfl⟩
abbrev main_v124 : Ref sig .tc := ⟨.hbm, 183, rfl⟩
abbrev main_v125 : Ref sig .tc := ⟨.hbm, 184, rfl⟩
abbrev main_c_39 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x5000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x5000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x5000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x5000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x5000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x5000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x5000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x5000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  bcast_S_S5000x5000 : S_.BroadcastsInDim S5000x5000 (![] : Fin 0 → Fin S5000x5000.rank)
  concatenates_S200000x1_S200000x1_S200000x2_d1 : Shape.Concatenates [S200000x1, S200000x1] S200000x2 1
  iota_S200x5000_d0_w32 : S200x5000.Iotas .tc 32 [0]
  iota_S200x5000_d1_w32 : S200x5000.Iotas .tc 32 [1]
  natLt_1_32 : 1 < 32
  inb_S200x5000_S200x5000_0_0 : ∀ a, (![0, 0] : Fin 2 → Nat) a + S200x5000.size a ≤ S200x5000.size a
  h_S200x5000 : 0 < S200x5000.numel
  shapeCasts_S200x5000_S200x5000 : S200x5000.ShapeCasts S200x5000
  gather_S5000x128_S200000x1_S200000x128_1_0_n_n_0_1_1128_wf : GatherDims.WF S5000x128 S200000x1 S200000x128 [1] [0] [] [0] [] 1 ![1, 128]
  gather_S1000x128_S200000x1_S200000x128_1_0_n_n_0_1_1128_wf : GatherDims.WF S1000x128 S200000x1 S200000x128 [1] [0] [] [0] [] 1 ![1, 128]
  scatter_S5000x5000_S200000x2_S200000_n_01_01_1_wf : ScatterDims.WF S5000x5000 S200000x2 S200000 [] [0, 1] [0, 1] 1
  gather_S1000_S200000x1_S200000_n_0_n_n_0_1_1_wf : GatherDims.WF S1000 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x5000.size a ≤ S5000x5000.size a
  hwx0_0 : ∀ i : grid0.Coords, EltTy.bits .f32 = 32 ∨ (Rect.block (s := S5000x5000) S200x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x5000.size a ≤ S5000x5000.size a
  hwx0_1 : ∀ i : grid0.Coords, EltTy.bits .f32 = 32 ∨ (Rect.block (s := S5000x5000) S200x5000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x5000.size a ≤ S5000x5000.size a
  hwx0_2 : ∀ i : grid0.Coords, EltTy.bits .f32 = 32 ∨ (Rect.block (s := S5000x5000) S200x5000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x5000.size a ≤ S5000x5000.size a
  hwx0_3 : ∀ i : grid0.Coords, EltTy.bits .f32 = 32 ∨ (Rect.block (s := S5000x5000) S200x5000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x5000.size a ≤ S5000x5000.size a
  hwx0_4 : ∀ i : grid0.Coords, EltTy.bits .f32 = 32 ∨ (Rect.block (s := S5000x5000) S200x5000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x5000.size a ≤ S5000x5000.size a
  hwx0_5 : ∀ i : grid0.Coords, EltTy.bits .f32 = 32 ∨ (Rect.block (s := S5000x5000) S200x5000.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x5000.size a ≤ S5000x5000.size a
  hwx1_0 : ∀ i : grid1.Coords, EltTy.bits .f32 = 32 ∨ (Rect.block (s := S5000x5000) S200x5000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x5000.size a ≤ S5000x5000.size a
  hwx1_1 : ∀ i : grid1.Coords, EltTy.bits .f32 = 32 ∨ (Rect.block (s := S5000x5000) S200x5000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x5000.size a ≤ S5000x5000.size a
  hwx1_2 : ∀ i : grid1.Coords, EltTy.bits .f32 = 32 ∨ (Rect.block (s := S5000x5000) S200x5000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x5000.size a ≤ S5000x5000.size a
  hwx1_3 : ∀ i : grid1.Coords, EltTy.bits .f32 = 32 ∨ (Rect.block (s := S5000x5000) S200x5000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x5000.size a ≤ S5000x5000.size a
  hwx1_4 : ∀ i : grid1.Coords, EltTy.bits .f32 = 32 ∨ (Rect.block (s := S5000x5000) S200x5000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x5000.size a ≤ S5000x5000.size a
  hwx1_5 : ∀ i : grid1.Coords, EltTy.bits .f32 = 32 ∨ (Rect.block (s := S5000x5000) S200x5000.size (cc1_transform_5 i) (hinb1_5 i)).WholeWords (EltTy.packing .f32)

variable [Facts₀]

def gather_S5000x128_S200000x1_S200000x128_1_0_n_n_0_1_1128 : GatherDims S5000x128 S200000x1 S200000x128 where
  offsetDims := [1]
  collapsedSliceDims := [0]
  operandBatchingDims := []
  startIndicesBatchingDims := []
  startIndexMap := [0]
  indexVectorDim := 1
  sliceSizes := ![1, 128]
  wf := gather_S5000x128_S200000x1_S200000x128_1_0_n_n_0_1_1128_wf
def gather_S1000x128_S200000x1_S200000x128_1_0_n_n_0_1_1128 : GatherDims S1000x128 S200000x1 S200000x128 where
  offsetDims := [1]
  collapsedSliceDims := [0]
  operandBatchingDims := []
  startIndicesBatchingDims := []
  startIndexMap := [0]
  indexVectorDim := 1
  sliceSizes := ![1, 128]
  wf := gather_S1000x128_S200000x1_S200000x128_1_0_n_n_0_1_1128_wf
def scatter_S5000x5000_S200000x2_S200000_n_01_01_1 : ScatterDims S5000x5000 S200000x2 S200000 where
  updateWindowDims := []
  insertedWindowDims := [0, 1]
  scatterDimsToOperandDims := [0, 1]
  indexVectorDim := 1
  wf := scatter_S5000x5000_S200000x2_S200000_n_01_01_1_wf
def gather_S1000_S200000x1_S200000_n_0_n_n_0_1_1 : GatherDims S1000 S200000x1 S200000 where
  offsetDims := []
  collapsedSliceDims := [0]
  operandBatchingDims := []
  startIndicesBatchingDims := []
  startIndexMap := [0]
  indexVectorDim := 1
  sliceSizes := ![1]
  wf := gather_S1000_S200000x1_S200000_n_0_n_n_0_1_1_wf

abbrev win0_0 : Pipeline.Window sig grid0 :=
  Pipeline.Window.ofSpec (Memref.whole main_arg6) S200x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S200x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S200x5000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S200x5000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65) S200x5000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v66) S200x5000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg9) S200x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S200x5000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S200x5000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v110) S200x5000.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v132) S200x5000.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v133) S200x5000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S5000x128 : Shape := ⟨2, ![5000, 128]⟩
abbrev S1000x128 : Shape := ⟨2, ![1000, 128]⟩
abbrev S1000 : Shape := ⟨1, ![1000]⟩
abbrev S5000x5000 : Shape := ⟨2, ![5000, 5000]⟩
abbrev S200000 : Shape := ⟨1, ![200000]⟩
abbrev S_ : Shape := ⟨0, ![]⟩
abbrev S200000x1 : Shape := ⟨2, ![200000, 1]⟩
abbrev S200000x128 : Shape := ⟨2, ![200000, 128]⟩
abbrev S200000x2 : Shape := ⟨2, ![200000, 2]⟩
abbrev S5000 : Shape := ⟨1, ![5000]⟩
abbrev S5000x1 : Shape := ⟨2, ![5000, 1]⟩
abbrev S5000x2 : Shape := ⟨2, ![5000, 2]⟩

abbrev nBuf : Space → Nat
  | .hbm => 260
  | .vmem => 0
  | .smem => 0
  | _ => 0

abbrev hbmTy0_0 (i : Nat) : BufTy := match i % 128 with
  | 0 => ⟨S5000x128, .f32⟩
  | 1 => ⟨S5000x128, .f32⟩
  | 2 => ⟨S1000x128, .f32⟩
  | 3 => ⟨S1000x128, .f32⟩
  | 4 => ⟨S1000, .f32⟩
  | 5 => ⟨S1000, .f32⟩
  | 6 => ⟨S5000x5000, .f32⟩
  | 7 => ⟨S5000x5000, .f32⟩
  | 8 => ⟨S5000x5000, .f32⟩
  | 9 => ⟨S5000x5000, .f32⟩
  | 10 => ⟨S5000x5000, .f32⟩
  | 11 => ⟨S5000x5000, .f32⟩
  | 12 => ⟨S200000, .i32⟩
  | 13 => ⟨S200000, .i32⟩
  | 14 => ⟨S200000, .i32⟩
  | 15 => ⟨S200000, .i32⟩
  | 16 => ⟨S200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x128, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x128, .f32⟩
  | 36 => ⟨S_, .i32⟩
  | 37 => ⟨S200000, .i32⟩
  | 38 => ⟨S200000, .i1⟩
  | 39 => ⟨S_, .i32⟩
  | 40 => ⟨S200000, .i32⟩
  | 41 => ⟨S200000, .i32⟩
  | 42 => ⟨S200000, .i32⟩
  | 43 => ⟨S200000x1, .i32⟩
  | 44 => ⟨S200000x128, .f32⟩
  | 45 => ⟨S200000x128, .f32⟩
  | 46 => ⟨S200000x128, .f32⟩
  | 47 => ⟨S200000x128, .f32⟩
  | 48 => ⟨S_, .f32⟩
  | 49 => ⟨S200000, .f32⟩
  | 50 => ⟨S_, .f32⟩
  | 51 => ⟨S200000, .f32⟩
  | 52 => ⟨S200000, .f32⟩
  | 53 => ⟨S_, .f32⟩
  | 54 => ⟨S200000, .f32⟩
  | 55 => ⟨S200000, .f32⟩
  | 56 => ⟨S_, .f32⟩
  | 57 => ⟨S5000x5000, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x1, .i32⟩
  | 74 => ⟨S200000x2, .i32⟩
  | 75 => ⟨S5000x5000, .f32⟩
  | 76 => ⟨S_, .f32⟩
  | 77 => ⟨S5000x5000, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000, .f32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S200000x1, .i32⟩
  | 103 => ⟨S200000x2, .i32⟩
  | 104 => ⟨S5000x5000, .f32⟩
  | 105 => ⟨S5000x5000, .f32⟩
  | 106 => ⟨S_, .f32⟩
  | 107 => ⟨S5000x5000, .f32⟩
  | 108 => ⟨S5000x5000, .f32⟩
  | 109 => ⟨S_, .f32⟩
  | 110 => ⟨S5000x5000, .f32⟩
  | 111 => ⟨S5000x5000, .f32⟩
  | 112 => ⟨S5000x5000, .f32⟩
  | 113 => ⟨S_, .f32⟩
  | 114 => ⟨S5000x5000, .f32⟩
  | 115 => ⟨S5000x5000, .f32⟩
  | 116 => ⟨S5000x5000, .f32⟩
  | 117 => ⟨S5000x5000, .f32⟩
  | 118 => ⟨S5000, .i32⟩
  | 119 => ⟨S_, .i32⟩
  | 120 => ⟨S5000, .i32⟩
  | 121 => ⟨S5000, .i1⟩
  | 122 => ⟨S_, .i32⟩
  | 123 => ⟨S5000, .i32⟩
  | 124 => ⟨S5000, .i32⟩
  | 125 => ⟨S5000, .i32⟩
  | 126 => ⟨S_, .i32⟩
  | 127 => ⟨S5000, .i32⟩
  | _ => ⟨S5000x128, .f32⟩

abbrev hbmTy0_1 (i : Nat) : BufTy := match i % 128 with
  | 0 => ⟨S5000, .i1⟩
  | 1 => ⟨S_, .i32⟩
  | 2 => ⟨S5000, .i32⟩
  | 3 => ⟨S5000, .i32⟩
  | 4 => ⟨S5000, .i32⟩
  | 5 => ⟨S5000x1, .i32⟩
  | 6 => ⟨S5000x1, .i32⟩
  | 7 => ⟨S5000x2, .i32⟩
  | 8 => ⟨S_, .f32⟩
  | 9 => ⟨S5000, .f32⟩
  | 10 => ⟨S5000x5000, .f32⟩
  | 11 => ⟨S_, .i32⟩
  | 12 => ⟨S200000, .i32⟩
  | 13 => ⟨S200000, .i1⟩
  | 14 => ⟨S_, .i32⟩
  | 15 => ⟨S200000, .i32⟩
  | 16 => ⟨S200000, .i32⟩
  | 17 => ⟨S200000, .i32⟩
  | 18 => ⟨S200000x1, .i32⟩
  | 19 => ⟨S200000x128, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x128, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x128, .f32⟩
  | 38 => ⟨S200000x128, .f32⟩
  | 39 => ⟨S200000x128, .f32⟩
  | 40 => ⟨S200000x128, .f32⟩
  | 41 => ⟨S_, .f32⟩
  | 42 => ⟨S200000, .f32⟩
  | 43 => ⟨S_, .f32⟩
  | 44 => ⟨S200000, .f32⟩
  | 45 => ⟨S200000, .f32⟩
  | 46 => ⟨S_, .f32⟩
  | 47 => ⟨S200000, .f32⟩
  | 48 => ⟨S200000, .f32⟩
  | 49 => ⟨S_, .f32⟩
  | 50 => ⟨S5000x5000, .f32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x1, .i32⟩
  | 67 => ⟨S200000x2, .i32⟩
  | 68 => ⟨S5000x5000, .f32⟩
  | 69 => ⟨S_, .f32⟩
  | 70 => ⟨S5000x5000, .f32⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S200000, .f32⟩
  | 80 => ⟨S_, .i32⟩
  | 81 => ⟨S200000, .i32⟩
  | 82 => ⟨S200000, .i1⟩
  | 83 => ⟨S_, .i32⟩
  | 84 => ⟨S200000, .i32⟩
  | 85 => ⟨S200000, .i32⟩
  | 86 => ⟨S200000, .i32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x1, .i32⟩
  | 96 => ⟨S200000x2, .i32⟩
  | 97 => ⟨S5000x5000, .f32⟩
  | 98 => ⟨S5000x5000, .f32⟩
  | 99 => ⟨S_, .f32⟩
  | 100 => ⟨S5000x5000, .f32⟩
  | 101 => ⟨S5000x5000, .f32⟩
  | 102 => ⟨S_, .f32⟩
  | 103 => ⟨S5000x5000, .f32⟩
  | 104 => ⟨S5000x5000, .f32⟩
  | 105 => ⟨S5000x5000, .f32⟩
  | 106 => ⟨S_, .f32⟩
  | 107 => ⟨S5000x5000, .f32⟩
  | 108 => ⟨S5000x5000, .f32⟩
  | 109 => ⟨S5000x5000, .f32⟩
  | 110 => ⟨S5000x5000, .f32⟩
  | 111 => ⟨S5000, .i32⟩
  | 112 => ⟨S_, .i32⟩
  | 113 => ⟨S5000, .i32⟩
  | 114 => ⟨S5000, .i1⟩
  | 115 => ⟨S_, .i32⟩
  | 116 => ⟨S5000, .i32⟩
  | 117 => ⟨S5000, .i32⟩
  | 118 => ⟨S5000, .i32⟩
  | 119 => ⟨S_, .i32⟩
  | 120 => ⟨S5000, .i32⟩
  | 121 => ⟨S5000, .i1⟩
  | 122 => ⟨S_, .i32⟩
  | 123 => ⟨S5000, .i32⟩
  | 124 => ⟨S5000, .i32⟩
  | 125 => ⟨S5000, .i32⟩
  | 126 => ⟨S5000x1, .i32⟩
  | 127 => ⟨S5000x1, .i32⟩
  | _ => ⟨S5000x128, .f32⟩

abbrev hbmTy0_2 (i : Nat) : BufTy := match i % 128 with
  | 0 => ⟨S5000x2, .i32⟩
  | 1 => ⟨S_, .f32⟩
  | 2 => ⟨S5000, .f32⟩
  | 3 => ⟨S5000x5000, .f32⟩
  | _ => ⟨S5000x128, .f32⟩

abbrev hbmTy (i : Nat) : BufTy := match i / 128 with
  | 0 => hbmTy0_0 i
  | 1 => hbmTy0_1 i
  | 2 => hbmTy0_2 i
  | _ => ⟨S5000x128, .f32⟩

abbrev bufTy : (tb : Table) → Fin (tcTables nBuf tb) → BufTy
  | .hbm, ⟨i, _⟩ => hbmTy i
  | _, _ => ⟨S5000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_c_9 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_c_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_12 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_c_14 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_15 : Ref sig .tc := ⟨.hbm, 87, rfl⟩
abbrev main_v52 : Ref sig .tc := ⟨.hbm, 88, rfl⟩
abbrev main_v53 : Ref sig .tc := ⟨.hbm, 89, rfl⟩
abbrev main_c_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_17 : Ref sig .tc := ⟨.hbm, 94, rfl⟩
abbrev main_v57 : Ref sig .tc := ⟨.hbm, 95, rfl⟩
abbrev main_v58 : Ref sig .tc := ⟨.hbm, 96, rfl⟩
abbrev main_c_18 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_cst_20 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_21 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_22 : Ref sig .tc := ⟨.hbm, 119, rfl⟩
abbrev main_v77 : Ref sig .tc := ⟨.hbm, 120, rfl⟩
abbrev main_v78 : Ref sig .tc := ⟨.hbm, 121, rfl⟩
abbrev main_c_23 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_24 : Ref sig .tc := ⟨.hbm, 126, rfl⟩
abbrev main_v82 : Ref sig .tc := ⟨.hbm, 127, rfl⟩
abbrev main_v83 : Ref sig .tc := ⟨.hbm, 128, rfl⟩
abbrev main_c_25 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_26 : Ref sig .tc := ⟨.hbm, 136, rfl⟩
abbrev main_v90 : Ref sig .tc := ⟨.hbm, 137, rfl⟩
abbrev main_v91 : Ref sig .tc := ⟨.hbm, 138, rfl⟩
abbrev main_c_27 : Ref sig .tc := ⟨.hbm, 139, rfl⟩
abbrev main_v92 : Ref sig .tc := ⟨.hbm, 140, rfl⟩
abbrev main_v93 : Ref sig .tc := ⟨.hbm, 141, rfl⟩
abbrev main_c_28 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_c_29 : Ref sig .tc := ⟨.hbm, 148, rfl⟩
abbrev main_v99 : Ref sig .tc := ⟨.hbm, 149, rfl⟩
abbrev main_v100 : Ref sig .tc := ⟨.hbm, 150, rfl⟩
abbrev main_c_30 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_c_31 : Ref sig .tc := ⟨.hbm, 157, rfl⟩
abbrev main_v106 : Ref sig .tc := ⟨.hbm, 158, rfl⟩
abbrev main_v107 : Ref sig .tc := ⟨.hbm, 159, rfl⟩
abbrev main_c_32 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_33 : Ref sig .tc := ⟨.hbm, 169, rfl⟩
abbrev main_v116 : Ref sig .tc := ⟨.hbm, 170, rfl⟩
abbrev main_cst_34 : Ref sig .tc := ⟨.hbm, 171, rfl⟩
abbrev main_v117 : Ref sig .tc := ⟨.hbm, 172, rfl⟩
abbrev main_v118 : Ref sig .tc := ⟨.hbm, 173, rfl⟩
abbrev main_cst_35 : Ref sig .tc := ⟨.hbm, 174, rfl⟩
abbrev main_v119 : Ref sig .tc := ⟨.hbm, 175, rfl⟩
abbrev main_v120 : Ref sig .tc := ⟨.hbm, 176, rfl⟩
abbrev main_cst_36 : Ref sig .tc := ⟨.hbm, 177, rfl⟩
abbrev main_v121 : Ref sig .tc := ⟨.hbm, 178, rfl⟩
abbrev main_c_37 : Ref sig .tc := ⟨.hbm, 179, rfl⟩
abbrev main_v122 : Ref sig .tc := ⟨.hbm, 180, rfl⟩
abbrev main_v123 : Ref sig .tc := ⟨.hbm, 181, rfl⟩
abbrev main_c_38 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_39 : Ref sig .tc := ⟨.hbm, 186, rfl⟩
abbrev main_v127 : Ref sig .tc := ⟨.hbm, 187, rfl⟩
abbrev main_v128 : Ref sig .tc := ⟨.hbm, 188, rfl⟩
abbrev main_c_40 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_cst_41 : Ref sig .tc := ⟨.hbm, 197, rfl⟩
abbrev main_v136 : Ref sig .tc := ⟨.hbm, 198, rfl⟩
abbrev main_c_42 : Ref sig .tc := ⟨.hbm, 199, rfl⟩
abbrev main_v137 : Ref sig .tc := ⟨.hbm, 200, rfl⟩
abbrev main_v138 : Ref sig .tc := ⟨.hbm, 201, rfl⟩
abbrev main_c_43 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_c_44 : Ref sig .tc := ⟨.hbm, 208, rfl⟩
abbrev main_v144 : Ref sig .tc := ⟨.hbm, 209, rfl⟩
abbrev main_v145 : Ref sig .tc := ⟨.hbm, 210, rfl⟩
abbrev main_c_45 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_c_46 : Ref sig .tc := ⟨.hbm, 215, rfl⟩
abbrev main_v149 : Ref sig .tc := ⟨.hbm, 216, rfl⟩
abbrev main_v150 : Ref sig .tc := ⟨.hbm, 217, rfl⟩
abbrev main_c_47 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_48 : Ref sig .tc := ⟨.hbm, 227, rfl⟩
abbrev main_v159 : Ref sig .tc := ⟨.hbm, 228, rfl⟩
abbrev main_v160 : Ref sig .tc := ⟨.hbm, 229, rfl⟩
abbrev main_cst_49 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_50 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_c_51 : Ref sig .tc := ⟨.hbm, 240, rfl⟩
abbrev main_v169 : Ref sig .tc := ⟨.hbm, 241, rfl⟩
abbrev main_v170 : Ref sig .tc := ⟨.hbm, 242, rfl⟩
abbrev main_c_52 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_c_53 : Ref sig .tc := ⟨.hbm, 247, rfl⟩
abbrev main_v174 : Ref sig .tc := ⟨.hbm, 248, rfl⟩
abbrev main_v175 : Ref sig .tc := ⟨.hbm, 249, rfl⟩
abbrev main_c_54 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_cst_55 : Ref sig .tc := ⟨.hbm, 257, rfl⟩
abbrev main_v182 : Ref sig .tc := ⟨.hbm, 258, rfl⟩
abbrev main_v183 : Ref sig .tc := ⟨.hbm, 259, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  bcast_S_S5000x5000 : S_.BroadcastsInDim S5000x5000 (![] : Fin 0 → Fin S5000x5000.rank)
  concatenates_S200000x1_S200000x1_S200000x2_d1 : Shape.Concatenates [S200000x1, S200000x1] S200000x2 1
  bcast_S_S5000 : S_.BroadcastsInDim S5000 (![] : Fin 0 → Fin S5000.rank)
  bcast_S5000_S5000x1_0 : S5000.BroadcastsInDim S5000x1 (![0] : Fin 1 → Fin S5000x1.rank)
  concatenates_S5000x1_S5000x1_S5000x2_d1 : Shape.Concatenates [S5000x1, S5000x1] S5000x2 1
  gather_S5000x128_S200000x1_S200000x128_1_0_n_n_0_1_1128_wf : GatherDims.WF S5000x128 S200000x1 S200000x128 [1] [0] [] [0] [] 1 ![1, 128]
  gather_S1000x128_S200000x1_S200000x128_1_0_n_n_0_1_1128_wf : GatherDims.WF S1000x128 S200000x1 S200000x128 [1] [0] [] [0] [] 1 ![1, 128]
  scatter_S5000x5000_S200000x2_S200000_n_01_01_1_wf : ScatterDims.WF S5000x5000 S200000x2 S200000 [] [0, 1] [0, 1] 1
  gather_S1000_S200000x1_S200000_n_0_n_n_0_1_1_wf : GatherDims.WF S1000 S200000x1 S200000 [] [0] [] [0] [] 1 ![1]
  scatter_S5000x5000_S5000x2_S5000_n_01_01_1_wf : ScatterDims.WF S5000x5000 S5000x2 S5000 [] [0, 1] [0, 1] 1

variable [Facts₀]

def gather_S5000x128_S200000x1_S200000x128_1_0_n_n_0_1_1128 : GatherDims S5000x128 S200000x1 S200000x128 where
  offsetDims := [1]
  collapsedSliceDims := [0]
  operandBatchingDims := []
  startIndicesBatchingDims := []
  startIndexMap := [0]
  indexVectorDim := 1
  sliceSizes := ![1, 128]
  wf := gather_S5000x128_S200000x1_S200000x128_1_0_n_n_0_1_1128_wf
def gather_S1000x128_S200000x1_S200000x128_1_0_n_n_0_1_1128 : GatherDims S1000x128 S200000x1 S200000x128 where
  offsetDims := [1]
  collapsedSliceDims := [0]
  operandBatchingDims := []
  startIndicesBatchingDims := []
  startIndexMap := [0]
  indexVectorDim := 1
  sliceSizes := ![1, 128]
  wf := gather_S1000x128_S200000x1_S200000x128_1_0_n_n_0_1_1128_wf
def scatter_S5000x5000_S200000x2_S200000_n_01_01_1 : ScatterDims S5000x5000 S200000x2 S200000 where
  updateWindowDims := []
  insertedWindowDims := [0, 1]
  scatterDimsToOperandDims := [0, 1]
  indexVectorDim := 1
  wf := scatter_S5000x5000_S200000x2_S200000_n_01_01_1_wf
def gather_S1000_S200000x1_S200000_n_0_n_n_0_1_1 : GatherDims S1000 S200000x1 S200000 where
  offsetDims := []
  collapsedSliceDims := [0]
  operandBatchingDims := []
  startIndicesBatchingDims := []
  startIndexMap := [0]
  indexVectorDim := 1
  sliceSizes := ![1]
  wf := gather_S1000_S200000x1_S200000_n_0_n_n_0_1_1_wf
def scatter_S5000x5000_S5000x2_S5000_n_01_01_1 : ScatterDims S5000x5000 S5000x2 S5000 where
  updateWindowDims := []
  insertedWindowDims := [0, 1]
  scatterDimsToOperandDims := [0, 1]
  indexVectorDim := 1
  wf := scatter_S5000x5000_S5000x2_S5000_n_01_01_1_wf

class Facts : Prop extends Facts₀ where

variable [Facts]
-- ==== Proof.Spec.lean ====
/- The adjacency matrix the two programs compute, and the two ways they put the unit diagonal on it — with no
   program in sight.

   Both programs form, entry by entry over a 5000 × 5000 matrix,
       (conf · imp) · ((w₃ · pca + w₃ · tv) + w₄ · att)
   (w₃, w₄ the two binary32 weights the sources write 0.3 and 0.4; the same words on both sides, so they are never
   evaluated) and then add 1 on the diagonal.

   * The kernel works on blocks of 200 rows. It adds to every entry the number it makes from the comparison
     "global row = column": the block's first row (the grid position times 200) plus the row inside the block,
     compared as 32-bit words with the column, the one-bit answer widened to a word and read as a signed integer.
     All three numbers are far below 2^31, so the words are equal exactly when the numbers are: the integer is 1 on
     the diagonal and 0 off it, and x + 0 = x on every extended real.

   * The reference scatters the constant 1 into the matrix at the 5000 index pairs (r, r): entry (p, q) receives the
     sum of the updates whose pair is (p, q) — the single update r = p when p = q, none otherwise. The pairs are built
     from the counting vector 0, 1, …, 4999 after the usual wrap of negative indices (which changes nothing, no entry
     being negative) by laying two copies side by side as the two columns of a 5000 × 2 array. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Adjacency

open Idealize.ShloMosaic Idealize.ShloMosaic.ValueIdx

/-- The matrix, the pair array, the flat vector of 5000, its column form, and the scalar shape. -/
abbrev SE : Shape := ⟨2, ![5000, 5000]⟩
abbrev SI : Shape := ⟨2, ![5000, 2]⟩
abbrev SU : Shape := ⟨1, ![5000]⟩
abbrev SC : Shape := ⟨2, ![5000, 1]⟩
abbrev S0 : Shape := ⟨0, ![]⟩

/-! ## The matrix both programs compute -/

/-- The weighted combination of the three dense matrices, before the diagonal. -/
def weighted (pca tv att : SE.Idx → EReal) : SE.Idx → EReal := fun i =>
  (Ideal.ofBits .f32 0x3E99999A#32 * pca i + Ideal.ofBits .f32 0x3E99999A#32 * tv i) + Ideal.ofBits .f32 0x3ECCCCCD#32 * att i

/-- The same combination written with whole-array operations: each weight spread over the matrix, the products and sums
    taken entry by entry. -/
theorem weighted_eq_pointwise (hb : S0.BroadcastsInDim SE (![] : Fin 0 → Fin SE.rank)) (pca tv att : SE.Idx → EReal) :
    weighted pca tv att
      = addf (addf (mulf (broadcastInDim SE ![] hb (constant (F := Ideal) S0 .f32 0x3E99999A#32)) pca)
                   (mulf (broadcastInDim SE ![] hb (constant (F := Ideal) S0 .f32 0x3E99999A#32)) tv))
             (mulf (broadcastInDim SE ![] hb (constant (F := Ideal) S0 .f32 0x3ECCCCCD#32)) att) := rfl

/-- Entry (p, q) of the result: the masked weighted combination, plus 1 when p = q. -/
def adjacency (conf imp : SE.Idx → EReal) (mix : SE.Idx → EReal) : SE.Idx → EReal := fun i =>
  (conf i * imp i) * mix i + (if (i 0).val = (i 1).val then (1 : EReal) else 0)

/-- An entry of that matrix, from the five numbers a program read at the entry and ITS test for the diagonal, whatever
    form the test takes. -/
theorem entry_spec (conf imp pca tv att : SE.Idx → EReal) (i : SE.Idx) (x0 x1 x2 x3 x4 : EReal) (P : Prop) [Decidable P]
    (h0 : x0 = conf i) (h1 : x1 = imp i) (h2 : x2 = pca i) (h3 : x3 = tv i) (h4 : x4 = att i)
    (hP : P ↔ (i 0).val = (i 1).val) :
    (x0 * x1) * ((Ideal.ofBits .f32 0x3E99999A#32 * x2 + Ideal.ofBits .f32 0x3E99999A#32 * x3) + Ideal.ofBits .f32 0x3ECCCCCD#32 * x4)
        + (if P then (1 : EReal) else 0)
      = adjacency conf imp (weighted pca tv att) i := by
  subst h0 h1 h2 h3 h4
  unfold adjacency weighted
  simp only [hP]

/-! ## The kernel's diagonal: a comparison of words -/

/-- Block row `r` (of 25), row `a` inside the block (of 200): the word `r·200 + a` is the number's. -/
theorem row_word (r a : Nat) (hr : r < 25) (ha : a < 200) :
    IntOp.addi (Scalar.muli (BitVec.ofNat 32 r) 200#32) (BitVec.ofNat 32 a) = BitVec.ofNat 32 (r * 200 + a) := by
  unfold IntOp.addi Scalar.muli IntOp.muli
  apply BitVec.eq_of_toNat_eq
  simp only [BitVec.toNat_add, BitVec.toNat_mul, BitVec.toNat_ofNat]
  omega

/-- The diagonal's integer: 1 where the global row is the column, 0 elsewhere. -/
theorem diag_int (r a b : Nat) (hr : r < 25) (ha : a < 200) (hb : b < 5000) :
    ((IntOp.cmpi .eq (IntOp.addi (Scalar.muli (BitVec.ofNat 32 r) 200#32) (BitVec.ofNat 32 a)) (BitVec.ofNat 32 b)).setWidth 32).toInt
      = if r * 200 + a = b then 1 else 0 := by
  rw [row_word r a hr ha]
  unfold IntOp.cmpi
  by_cases h : r * 200 + a = b
  · subst h
    simp
  · have hne : (BitVec.ofNat 32 (r * 200 + a) == BitVec.ofNat 32 b) = false := by
      rw [beq_eq_false_iff_ne]
      intro e
      have e' := congrArg BitVec.toNat e
      simp only [BitVec.toNat_ofNat] at e'
      omega
    simp [hne, h]

/-- The same as an extended real. -/
theorem diag_real (r a b : Nat) (hr : r < 25) (ha : a < 200) (hb : b < 5000) :
    ((((IntOp.cmpi .eq (IntOp.addi (Scalar.muli (BitVec.ofNat 32 r) 200#32) (BitVec.ofNat 32 a)) (BitVec.ofNat 32 b)).setWidth 32).toInt : ℝ) : EReal)
      = if r * 200 + a = b then (1 : EReal) else 0 := by
  rw [diag_int r a b hr ha hb]
  split <;> simp

/-! ## The reference's diagonal: a scatter of ones at the pairs (r, r) -/

/-- A number below 5000, as a 32-bit word read signed, is itself. -/
theorem toInt_small (r : Nat) (hr : r < 5000) : (BitVec.ofNat 32 r).toInt = (r : Int) := by
  rw [BitVec.toInt_eq_toNat_cond, BitVec.toNat_ofNat]
  have h1 : r % 2 ^ 32 = r := Nat.mod_eq_of_lt (by omega)
  rw [h1, if_pos (by omega)]

/-- Such a word is not negative. -/
theorem not_slt_zero (r : Nat) (hr : r < 5000) : IntOp.cmpi .slt (BitVec.ofNat 32 r) 0#32 = 0#1 := by
  unfold IntOp.cmpi
  have h : (BitVec.ofNat 32 r).slt 0#32 = false := by
    rw [BitVec.slt, toInt_small r hr]
    simp
  simp [h]

/-- The counting vector after the wrap of negative entries is the counting vector: entry `r` is the word `r`. -/
theorem wrapped_count_apply (hb : S0.BroadcastsInDim SU (![] : Fin 0 → Fin SU.rank)) (r : Fin 5000) :
    select (cmpi .slt (iotaInDim SU 32 0) (broadcastInDim SU ![] hb (constantI S0 32 0#32)))
        (addi (iotaInDim SU 32 0) (broadcastInDim SU ![] hb (constantI S0 32 5000#32))) (iotaInDim SU 32 0) (ix1 r)
      = BitVec.ofNat 32 r.val := by
  rw [select_apply]
  have hc : cmpi .slt (iotaInDim SU 32 0) (broadcastInDim SU ![] hb (constantI S0 32 0#32)) (ix1 r) = 0#1 :=
    not_slt_zero r.val r.isLt
  rw [hc, select_zero]
  rfl

/-- The dimension numbers of a scatter of single elements into a matrix at (row, column) pairs read off the two
    columns of a pair array. -/
def pairDims (wf : ScatterDims.WF SE SI SU [] [0, 1] [0, 1] 1) : ScatterDims SE SI SU where
  updateWindowDims := []
  insertedWindowDims := [0, 1]
  scatterDimsToOperandDims := [0, 1]
  indexVectorDim := 1
  wf := wf

section Pairs
variable (wf : ScatterDims.WF SE SI SU [] [0, 1] [0, 1] 1)

/-- A single element has no window: the window coordinate is 0 on both axes. -/
theorem window_zero (j : SU.Idx) (a : Fin 2) : (pairDims wf).window j a = 0 := by
  unfold ScatterDims.window
  rw [dif_neg]
  show a ∉ SE.kept ([0, 1] : List (Fin 2))
  revert a; decide

theorem mem_axis0 : (0 : Fin 2) ∈ (pairDims wf).scatterDimsToOperandDims := by
  show (0 : Fin 2) ∈ ([0, 1] : List (Fin 2)); decide
theorem mem_axis1 : (1 : Fin 2) ∈ (pairDims wf).scatterDimsToOperandDims := by
  show (1 : Fin 2) ∈ ([0, 1] : List (Fin 2)); decide

/-- Update `r` starts, on the row axis, at the first column of row `r` of the pair array, -/
theorem start_row (r : Fin 5000) (idx : IVec SI 32) :
    (pairDims wf).start (ix1 r) idx (0 : Fin 2) = (idx (ix2 r (0 : Fin 2))).toInt := by
  unfold ScatterDims.start
  rw [dif_pos (mem_axis0 wf)]
  refine congrArg (fun k => (idx k).toInt) ?_
  funext b
  fin_cases b <;> rfl

/-- and on the column axis at its second column. -/
theorem start_col (r : Fin 5000) (idx : IVec SI 32) :
    (pairDims wf).start (ix1 r) idx (1 : Fin 2) = (idx (ix2 r (1 : Fin 2))).toInt := by
  unfold ScatterDims.start
  rw [dif_pos (mem_axis1 wf)]
  refine congrArg (fun k => (idx k).toInt) ?_
  funext b
  fin_cases b <;> rfl

/-- When both columns of row `r` of the pair array hold the word `r`, update `r` lands at (r, r): on each axis the
    start plus the (zero) window coordinate is the number `r`. -/
theorem landing (idx : IVec SI 32) (hidx : ∀ (r : Fin 5000) (a : Fin 2), idx (ix2 r a) = BitVec.ofNat 32 r.val)
    (r : Fin 5000) (a : Fin 2) :
    (pairDims wf).start (ix1 r) idx a + ((pairDims wf).window (ix1 r) a : Int) = (r.val : Int) := by
  rw [window_zero]
  match a with
  | ⟨0, _⟩ =>
    show (pairDims wf).start (ix1 r) idx (0 : Fin 2) + ((0 : Nat) : Int) = _
    rw [start_row, hidx, toInt_small r.val r.isLt]; simp
  | ⟨1, _⟩ =>
    show (pairDims wf).start (ix1 r) idx (1 : Fin 2) + ((0 : Nat) : Int) = _
    rw [start_col, hidx, toInt_small r.val r.isLt]; simp

/-- So update `r` is added at entry (p, q) exactly when p = q = r. -/
theorem lands_iff (idx : IVec SI 32) (hidx : ∀ (r : Fin 5000) (a : Fin 2), idx (ix2 r a) = BitVec.ofNat 32 r.val)
    (r p q : Fin 5000) :
    (pairDims wf).resultIdx? (ix1 r) idx = some (ix2 p q) ↔ (r = p ∧ r = q) := by
  have hl := landing wf idx hidx r
  have hin : ∀ a, 0 ≤ (pairDims wf).start (ix1 r) idx a + ((pairDims wf).window (ix1 r) a : Int)
      ∧ (pairDims wf).start (ix1 r) idx a + ((pairDims wf).window (ix1 r) a : Int) < (SE.size a : Int) := fun a => by
    rw [hl a]
    have := r.isLt
    match a with
    | ⟨0, _⟩ => exact ⟨by omega, by show (r.val : Int) < ((5000 : Nat) : Int); omega⟩
    | ⟨1, _⟩ => exact ⟨by omega, by show (r.val : Int) < ((5000 : Nat) : Int); omega⟩
  unfold ScatterDims.resultIdx?
  rw [dif_pos hin, Option.some.injEq]
  constructor
  · intro h
    have h0 := congrArg (fun i : SE.Idx => (i 0).val) h
    have h1 := congrArg (fun i : SE.Idx => (i 1).val) h
    simp only [hl] at h0 h1
    exact ⟨Fin.ext (by simpa using h0), Fin.ext (by simpa using h1)⟩
  · rintro ⟨rfl, rfl⟩
    funext a
    apply Fin.ext
    show ((pairDims wf).start (ix1 r) idx a + ((pairDims wf).window (ix1 r) a : Int)).toNat = (ix2 r r a).val
    rw [hl a]
    match a with
    | ⟨0, _⟩ => simp
    | ⟨1, _⟩ => simp

/-- THE SCATTER OF ONES AT THE PAIRS (r, r): entry (p, q) of the matrix gains 1 when p = q and nothing otherwise. -/
theorem scatter_ones_apply (x : SE.Idx → EReal) (idx : IVec SI 32)
    (hidx : ∀ (r : Fin 5000) (a : Fin 2), idx (ix2 r a) = BitVec.ofNat 32 r.val)
    (upd : SU.Idx → EReal) (hupd : ∀ j, upd j = 1) (p q : Fin 5000) :
    Ideal.hostScatterAdd (pairDims wf) x idx upd (ix2 p q) = x (ix2 p q) + (if p.val = q.val then (1 : EReal) else 0) := by
  unfold Ideal.hostScatterAdd
  refine congrArg (x (ix2 p q) + ·) ?_
  have hset : (Finset.univ.filter fun j : SU.Idx => (pairDims wf).resultIdx? j idx = some (ix2 p q))
      = if p = q then {ix1 p} else ∅ := by
    ext j
    obtain ⟨r, rfl⟩ : ∃ r : Fin 5000, j = ix1 r := ⟨j 0, eq_ix1 j⟩
    rw [Finset.mem_filter, lands_iff wf idx hidx r p q]
    by_cases hpq : p = q
    · subst hpq
      rw [if_pos rfl, Finset.mem_singleton]
      constructor
      · rintro ⟨-, h, -⟩; rw [h]
      · intro h
        have : r = p := by
          have := congrFun h (0 : Fin 1)
          exact this
        exact ⟨Finset.mem_univ _, this, this⟩
    · rw [if_neg hpq]
      constructor
      · rintro ⟨-, h1, h2⟩; exact absurd (h1.symm.trans h2) hpq
      · intro h; exact absurd h (Finset.notMem_empty _)
  rw [hset]
  by_cases hpq : p = q
  · subst hpq
    rw [if_pos rfl, Finset.sum_singleton, hupd, if_pos rfl]
  · rw [if_neg hpq, Finset.sum_empty, if_neg (fun h => hpq (Fin.ext h))]

end Pairs

end Cert.Adjacency

end
-- ==== Proof.KernelBlocks.lean ====
/- The idealized kernel's two calls, from blocks to whole matrices.

   Each call runs over 25 grid points; at point t every window — the five inputs and the output — holds block row t of
   its 5000 × 5000 matrix: rows 200·t … 200·t + 199, all 5000 columns. The body writes, entry by entry,
   (conf · imp) · ((w₃ · pca + w₃ · tv) + w₄ · att) + [200·t + a = b] at row a and column b of the block, which is entry
   (200·t + a, b) of the matrix: the adjacency matrix's entry there. The 25 blocks tile the matrix, so after the call the
   output matrix IS the adjacency matrix of the five arrays as the call found them. Everything is stated at a
   parameter V — the buffer contents when the call is entered — so that the two calls' theorems are the same text. -/
import proofs.«163891_j56392920596510_1_alg».proof.Proof.KernelIdealFrame
import proofs.«163891_j56392920596510_1_alg».proof.Proof.Spec
import Idealize.ShloMosaic.Lib.ValueIdx
import Idealize.ShloMosaic.Lib.Pipeline.Value

set_option maxRecDepth 16384

noncomputable section

namespace Cert.KernelIdeal.Adj

open Cert.KernelIdeal Cert.KernelIdeal.Gen Cert.KernelIdeal.GenP Cert.Adjacency
open Idealize.ShloMosaic Idealize.ShloMosaic.TcCoe Idealize.ShloMosaic.ValueIdx Idealize.SL.Sem
open Idealize.ShloMosaic.Pipeline (Dat)

/-- The offset of a whole-block access. -/
theorem hz : (![0, 0] : Fin 2 → Nat) = fun _ => 0 := funext fun a => by fin_cases a <;> rfl

/-! ## Call 0: the blocks of 200 rows, and the whole matrix -/

/-- The body's stored value at an entry (a, b) of its block, at grid position `i`: the masked weighted combination of
    the five loaded blocks at that entry, plus 1 when the block's global row `i·200 + a` is the column `b`. -/
theorem pay0_apply (i : grid0.Coords) (x0 x1 x2 x3 x4 : Vec Ideal S200x5000 .f32) (a : Fin 200) (b : Fin 5000) :
    k0_pay1 (F := Ideal) i x0 x1 x2 x3 x4 (ix2 a b)
      = (x0 (ix2 a b) * x1 (ix2 a b)) * ((Ideal.ofBits .f32 0x3E99999A#32 * x2 (ix2 a b) + Ideal.ofBits .f32 0x3E99999A#32 * x3 (ix2 a b)) + Ideal.ofBits .f32 0x3ECCCCCD#32 * x4 (ix2 a b))
        + (if (i 0).val * 200 + a.val = b.val then (1 : EReal) else 0) := by
  have hi : (i 0).val < 25 := (i 0).isLt
  rw [← diag_real (i 0).val a.val b.val hi a.isLt b.isLt]
  unfold k0_pay1
  simp only [shapeCast_self]
  have h0 : iota .tc S200x5000 32 [0] iota_S200x5000_d0_w32 (ix2 a b) = BitVec.ofNat 32 a.val :=
    iota_single_apply .tc S200x5000 32 0 iota_S200x5000_d0_w32 (ix2 a b)
  have h1 : iota .tc S200x5000 32 [1] iota_S200x5000_d1_w32 (ix2 a b) = BitVec.ofNat 32 b.val :=
    iota_single_apply .tc S200x5000 32 1 iota_S200x5000_d1_w32 (ix2 a b)
  show x0 (ix2 a b) * x1 (ix2 a b) * (Ideal.ofBits .f32 0x3E99999A#32 * x2 (ix2 a b) + Ideal.ofBits .f32 0x3E99999A#32 * x3 (ix2 a b) + Ideal.ofBits .f32 0x3ECCCCCD#32 * x4 (ix2 a b))
      + ((((IntOp.cmpi .eq (IntOp.addi (Scalar.muli (BitVec.ofNat 32 (i 0).val) 200#32) (iota .tc S200x5000 32 [0] iota_S200x5000_d0_w32 (ix2 a b)))
          (iota .tc S200x5000 32 [1] iota_S200x5000_d1_w32 (ix2 a b))).setWidth 32).toInt : ℝ) : EReal) = _
  rw [h0, h1]

/-- The same at any index of the block. -/
theorem pay0_at (i : grid0.Coords) (x0 x1 x2 x3 x4 : Vec Ideal S200x5000 .f32) (j : S200x5000.Idx) :
    k0_pay1 (F := Ideal) i x0 x1 x2 x3 x4 j
      = (x0 j * x1 j) * ((Ideal.ofBits .f32 0x3E99999A#32 * x2 j + Ideal.ofBits .f32 0x3E99999A#32 * x3 j) + Ideal.ofBits .f32 0x3ECCCCCD#32 * x4 j)
        + (if (i 0).val * 200 + (j 0).val = (j 1).val then (1 : EReal) else 0) := by
  obtain ⟨a, b, rfl⟩ : ∃ (a : Fin 200) (b : Fin 5000), j = ix2 a b := ⟨j 0, j 1, eq_ix2 j⟩
  exact pay0_apply i x0 x1 x2 x3 x4 a b

/-- The index maps, decided once over the 25 grid points: at point `t` every window's block is block row `t` of its
    matrix (all 5000 columns), and the grid coordinate the body reads is `t`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- Every block row is some point's. -/
theorem idx_onto0 : ∀ q0 : Fin 25, ∃ t : Fin cfg0.N, win0_5.index t = ![q0.val, 0] :=
  (by decide +kernel : ∀ q0 : Fin 25, ∃ t : Fin grid0.N, win0_5.index t = ![q0.val, 0])

section
variable (V : (c : Dev nD) → (b : Ref sig .tc) → Buf (Elt Ideal) ((c : Thread nD τ).loc b))

set_option backward.isDefEq.respectTransparency.types false in
/-- WHAT POINT `t` WRITES BACK is block `t` of the adjacency matrix of the five arrays as the call finds them: every
    input block is read at the same rows and columns as the output block, and the body's row test "t·200 + a = b" is the
    matrix's "row = column" there. -/
theorem flushed0_eq (c : Dev nD) (t : Fin cfg0.N) :
    (dat0 V c).flushed 5 t = ((cfg0.win 5).blk t).view.read (Elt Ideal)
      (adjacency (V c main_arg6) (V c main_arg7) (weighted (V c main_arg8) (V c main_v43) (V c main_v65))) := by
  show (cfg0.win 5).cut (grid0.coords t) ((dat0 V c).after 5 t) = _
  rw [after0_5]
  unfold out0_5
  rw [View.canon_unit_zero hz]
  simp only [View.ld_unit_zero (S := S200x5000) hz]
  obtain ⟨e00, e01, e10, e11, e20, e21, e30, e31, e40, e41, e50, e51, eg⟩ := idx_facts0 t
  funext j
  refine (pay0_at (grid0.coords t) (iblk0 V c 0 t) (iblk0 V c 1 t) (iblk0 V c 2 t) (iblk0 V c 3 t) (iblk0 V c 4 t) j).trans ?_
  have h0 : ((cfg0.win 0).blk t).view.emb j = ((cfg0.win 5).blk t).view.emb j := by
    funext a; apply Fin.ext
    match a with
    | ⟨0, _⟩ => show win0_0.index t (0 : Fin 2) * 200 + 1 * (j 0).val = win0_5.index t (0 : Fin 2) * 200 + 1 * (j 0).val; omega
    | ⟨1, _⟩ => show win0_0.index t (1 : Fin 2) * 5000 + 1 * (j 1).val = win0_5.index t (1 : Fin 2) * 5000 + 1 * (j 1).val; omega
  have h1 : ((cfg0.win 1).blk t).view.emb j = ((cfg0.win 5).blk t).view.emb j := by
    funext a; apply Fin.ext
    match a with
    | ⟨0, _⟩ => show win0_1.index t (0 : Fin 2) * 200 + 1 * (j 0).val = win0_5.index t (0 : Fin 2) * 200 + 1 * (j 0).val; omega
    | ⟨1, _⟩ => show win0_1.index t (1 : Fin 2) * 5000 + 1 * (j 1).val = win0_5.index t (1 : Fin 2) * 5000 + 1 * (j 1).val; omega
  have h2 : ((cfg0.win 2).blk t).view.emb j = ((cfg0.win 5).blk t).view.emb j := by
    funext a; apply Fin.ext
    match a with
    | ⟨0, _⟩ => show win0_2.index t (0 : Fin 2) * 200 + 1 * (j 0).val = win0_5.index t (0 : Fin 2) * 200 + 1 * (j 0).val; omega
    | ⟨1, _⟩ => show win0_2.index t (1 : Fin 2) * 5000 + 1 * (j 1).val = win0_5.index t (1 : Fin 2) * 5000 + 1 * (j 1).val; omega
  have h3 : ((cfg0.win 3).blk t).view.emb j = ((cfg0.win 5).blk t).view.emb j := by
    funext a; apply Fin.ext
    match a with
    | ⟨0, _⟩ => show win0_3.index t (0 : Fin 2) * 200 + 1 * (j 0).val = win0_5.index t (0 : Fin 2) * 200 + 1 * (j 0).val; omega
    | ⟨1, _⟩ => show win0_3.index t (1 : Fin 2) * 5000 + 1 * (j 1).val = win0_5.index t (1 : Fin 2) * 5000 + 1 * (j 1).val; omega
  have h4 : ((cfg0.win 4).blk t).view.emb j = ((cfg0.win 5).blk t).view.emb j := by
    funext a; apply Fin.ext
    match a with
    | ⟨0, _⟩ => show win0_4.index t (0 : Fin 2) * 200 + 1 * (j 0).val = win0_5.index t (0 : Fin 2) * 200 + 1 * (j 0).val; omega
    | ⟨1, _⟩ => show win0_4.index t (1 : Fin 2) * 5000 + 1 * (j 1).val = win0_5.index t (1 : Fin 2) * 5000 + 1 * (j 1).val; omega
  have hr : ((((cfg0.win 5).blk t).view.emb j) 0).val = (grid0.coords t 0).val * 200 + (j 0).val := by
    show win0_5.index t (0 : Fin 2) * 200 + 1 * (j 0).val = _; omega
  have hc : ((((cfg0.win 5).blk t).view.emb j) 1).val = (j 1).val := by
    show win0_5.index t (1 : Fin 2) * 5000 + 1 * (j 1).val = _; omega
  refine entry_spec (V c main_arg6) (V c main_arg7) (V c main_arg8) (V c main_v43) (V c main_v65)
    (((cfg0.win 5).blk t).view.emb j) _ _ _ _ _ _ ?_ ?_ ?_ ?_ ?_ ?_
  · show V c main_arg6 (((cfg0.win 0).blk t).view.emb j) = V c main_arg6 (((cfg0.win 5).blk t).view.emb j); rw [h0]
  · show V c main_arg7 (((cfg0.win 1).blk t).view.emb j) = V c main_arg7 (((cfg0.win 5).blk t).view.emb j); rw [h1]
  · show V c main_arg8 (((cfg0.win 2).blk t).view.emb j) = V c main_arg8 (((cfg0.win 5).blk t).view.emb j); rw [h2]
  · show V c main_v43 (((cfg0.win 3).blk t).view.emb j) = V c main_v43 (((cfg0.win 5).blk t).view.emb j); rw [h3]
  · show V c main_v65 (((cfg0.win 4).blk t).view.emb j) = V c main_v65 (((cfg0.win 5).blk t).view.emb j); rw [h4]
  · rw [hr, hc]

/-- An index of the output matrix is in point `t`'s block iff each coordinate is in the block's range on its axis. -/
theorem mem_blk0 (t : Fin cfg0.N) (i : S5000x5000.Idx) :
    i ∈ ((cfg0.win 5).blk t).view.set ↔ ∀ a : Fin 2, win0_5.index t a * S200x5000.size a ≤ (i a).val ∧ (i a).val < win0_5.index t a * S200x5000.size a + S200x5000.size a := by
  show i ∈ ((View.whole main_v66).slice (win0_5.rect t)).set ↔ _
  rw [View.set_slice_whole, Rect.mem_set_unit]
  exact Iff.rfl

/-- The 25 blocks of 200 rows cover the matrix: row `r` lies in the block of point `r / 200`. -/
theorem cover0 (i : S5000x5000.Idx) :
    ∃ t : Fin cfg0.N, (cfg0.win 5).flush t = true ∧ i ∈ ((cfg0.win 5).blk t).view.set := by
  have hi0 : (i 0).val < 5000 := (i 0).isLt
  have hi1 : (i 1).val < 5000 := (i 1).isLt
  obtain ⟨t, ht⟩ := idx_onto0 ⟨(i 0).val / 200, by omega⟩
  have q0 : win0_5.index t (0 : Fin 2) = (i 0).val / 200 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 5000 ≤ (i 1).val ∧ (i 1).val < win0_5.index t (1 : Fin 2) * 5000 + 5000; omega

/-- THE OUTPUT MATRIX after call 0: the adjacency matrix of the five arrays as the call finds them. -/
theorem final0 (c : Dev nD) :
    (dat0 V c).arrAt 5 cfg0.N = adjacency (V c main_arg6) (V c main_arg7) (weighted (V c main_arg8) (V c main_v43) (V c main_v65)) :=
  (dat0 V c).arrAt_eq_of_cover 5 _ (fun t _ => flushed0_eq V c t) (cover0)

end

/-! ## Call 1: the blocks of 200 rows, and the whole matrix -/

/-- The body's stored value at an entry (a, b) of its block, at grid position `i`: the masked weighted combination of
    the five loaded blocks at that entry, plus 1 when the block's global row `i·200 + a` is the column `b`. -/
theorem pay1_apply (i : grid1.Coords) (x0 x1 x2 x3 x4 : Vec Ideal S200x5000 .f32) (a : Fin 200) (b : Fin 5000) :
    k1_pay1 (F := Ideal) i x0 x1 x2 x3 x4 (ix2 a b)
      = (x0 (ix2 a b) * x1 (ix2 a b)) * ((Ideal.ofBits .f32 0x3E99999A#32 * x2 (ix2 a b) + Ideal.ofBits .f32 0x3E99999A#32 * x3 (ix2 a b)) + Ideal.ofBits .f32 0x3ECCCCCD#32 * x4 (ix2 a b))
        + (if (i 0).val * 200 + a.val = b.val then (1 : EReal) else 0) := by
  have hi : (i 0).val < 25 := (i 0).isLt
  rw [← diag_real (i 0).val a.val b.val hi a.isLt b.isLt]
  unfold k1_pay1
  simp only [shapeCast_self]
  have h0 : iota .tc S200x5000 32 [0] iota_S200x5000_d0_w32 (ix2 a b) = BitVec.ofNat 32 a.val :=
    iota_single_apply .tc S200x5000 32 0 iota_S200x5000_d0_w32 (ix2 a b)
  have h1 : iota .tc S200x5000 32 [1] iota_S200x5000_d1_w32 (ix2 a b) = BitVec.ofNat 32 b.val :=
    iota_single_apply .tc S200x5000 32 1 iota_S200x5000_d1_w32 (ix2 a b)
  show x0 (ix2 a b) * x1 (ix2 a b) * (Ideal.ofBits .f32 0x3E99999A#32 * x2 (ix2 a b) + Ideal.ofBits .f32 0x3E99999A#32 * x3 (ix2 a b) + Ideal.ofBits .f32 0x3ECCCCCD#32 * x4 (ix2 a b))
      + ((((IntOp.cmpi .eq (IntOp.addi (Scalar.muli (BitVec.ofNat 32 (i 0).val) 200#32) (iota .tc S200x5000 32 [0] iota_S200x5000_d0_w32 (ix2 a b)))
          (iota .tc S200x5000 32 [1] iota_S200x5000_d1_w32 (ix2 a b))).setWidth 32).toInt : ℝ) : EReal) = _
  rw [h0, h1]

/-- The same at any index of the block. -/
theorem pay1_at (i : grid1.Coords) (x0 x1 x2 x3 x4 : Vec Ideal S200x5000 .f32) (j : S200x5000.Idx) :
    k1_pay1 (F := Ideal) i x0 x1 x2 x3 x4 j
      = (x0 j * x1 j) * ((Ideal.ofBits .f32 0x3E99999A#32 * x2 j + Ideal.ofBits .f32 0x3E99999A#32 * x3 j) + Ideal.ofBits .f32 0x3ECCCCCD#32 * x4 j)
        + (if (i 0).val * 200 + (j 0).val = (j 1).val then (1 : EReal) else 0) := by
  obtain ⟨a, b, rfl⟩ : ∃ (a : Fin 200) (b : Fin 5000), j = ix2 a b := ⟨j 0, j 1, eq_ix2 j⟩
  exact pay1_apply i x0 x1 x2 x3 x4 a b

/-- The index maps, decided once over the 25 grid points: at point `t` every window's block is block row `t` of its
    matrix (all 5000 columns), and the grid coordinate the body reads is `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ ((grid1.coords t) 0).val = t.val :=
  (by decide +kernel : ∀ t : Fin grid1.N, _)

/-- Every block row is some point's. -/
theorem idx_onto1 : ∀ q0 : Fin 25, ∃ t : Fin cfg1.N, win1_5.index t = ![q0.val, 0] :=
  (by decide +kernel : ∀ q0 : Fin 25, ∃ t : Fin grid1.N, win1_5.index t = ![q0.val, 0])

section
variable (V : (c : Dev nD) → (b : Ref sig .tc) → Buf (Elt Ideal) ((c : Thread nD τ).loc b))

set_option backward.isDefEq.respectTransparency.types false in
/-- WHAT POINT `t` WRITES BACK is block `t` of the adjacency matrix of the five arrays as the call finds them: every
    input block is read at the same rows and columns as the output block, and the body's row test "t·200 + a = b" is the
    matrix's "row = column" there. -/
theorem flushed1_eq (c : Dev nD) (t : Fin cfg1.N) :
    (dat1 V c).flushed 5 t = ((cfg1.win 5).blk t).view.read (Elt Ideal)
      (adjacency (V c main_arg9) (V c main_arg10) (weighted (V c main_arg11) (V c main_v110) (V c main_v132))) := by
  show (cfg1.win 5).cut (grid1.coords t) ((dat1 V c).after 5 t) = _
  rw [after1_5]
  unfold out1_5
  rw [View.canon_unit_zero hz]
  simp only [View.ld_unit_zero (S := S200x5000) hz]
  obtain ⟨e00, e01, e10, e11, e20, e21, e30, e31, e40, e41, e50, e51, eg⟩ := idx_facts1 t
  funext j
  refine (pay1_at (grid1.coords t) (iblk1 V c 0 t) (iblk1 V c 1 t) (iblk1 V c 2 t) (iblk1 V c 3 t) (iblk1 V c 4 t) j).trans ?_
  have h0 : ((cfg1.win 0).blk t).view.emb j = ((cfg1.win 5).blk t).view.emb j := by
    funext a; apply Fin.ext
    match a with
    | ⟨0, _⟩ => show win1_0.index t (0 : Fin 2) * 200 + 1 * (j 0).val = win1_5.index t (0 : Fin 2) * 200 + 1 * (j 0).val; omega
    | ⟨1, _⟩ => show win1_0.index t (1 : Fin 2) * 5000 + 1 * (j 1).val = win1_5.index t (1 : Fin 2) * 5000 + 1 * (j 1).val; omega
  have h1 : ((cfg1.win 1).blk t).view.emb j = ((cfg1.win 5).blk t).view.emb j := by
    funext a; apply Fin.ext
    match a with
    | ⟨0, _⟩ => show win1_1.index t (0 : Fin 2) * 200 + 1 * (j 0).val = win1_5.index t (0 : Fin 2) * 200 + 1 * (j 0).val; omega
    | ⟨1, _⟩ => show win1_1.index t (1 : Fin 2) * 5000 + 1 * (j 1).val = win1_5.index t (1 : Fin 2) * 5000 + 1 * (j 1).val; omega
  have h2 : ((cfg1.win 2).blk t).view.emb j = ((cfg1.win 5).blk t).view.emb j := by
    funext a; apply Fin.ext
    match a with
    | ⟨0, _⟩ => show win1_2.index t (0 : Fin 2) * 200 + 1 * (j 0).val = win1_5.index t (0 : Fin 2) * 200 + 1 * (j 0).val; omega
    | ⟨1, _⟩ => show win1_2.index t (1 : Fin 2) * 5000 + 1 * (j 1).val = win1_5.index t (1 : Fin 2) * 5000 + 1 * (j 1).val; omega
  have h3 : ((cfg1.win 3).blk t).view.emb j = ((cfg1.win 5).blk t).view.emb j := by
    funext a; apply Fin.ext
    match a with
    | ⟨0, _⟩ => show win1_3.index t (0 : Fin 2) * 200 + 1 * (j 0).val = win1_5.index t (0 : Fin 2) * 200 + 1 * (j 0).val; omega
    | ⟨1, _⟩ => show win1_3.index t (1 : Fin 2) * 5000 + 1 * (j 1).val = win1_5.index t (1 : Fin 2) * 5000 + 1 * (j 1).val; omega
  have h4 : ((cfg1.win 4).blk t).view.emb j = ((cfg1.win 5).blk t).view.emb j := by
    funext a; apply Fin.ext
    match a with
    | ⟨0, _⟩ => show win1_4.index t (0 : Fin 2) * 200 + 1 * (j 0).val = win1_5.index t (0 : Fin 2) * 200 + 1 * (j 0).val; omega
    | ⟨1, _⟩ => show win1_4.index t (1 : Fin 2) * 5000 + 1 * (j 1).val = win1_5.index t (1 : Fin 2) * 5000 + 1 * (j 1).val; omega
  have hr : ((((cfg1.win 5).blk t).view.emb j) 0).val = (grid1.coords t 0).val * 200 + (j 0).val := by
    show win1_5.index t (0 : Fin 2) * 200 + 1 * (j 0).val = _; omega
  have hc : ((((cfg1.win 5).blk t).view.emb j) 1).val = (j 1).val := by
    show win1_5.index t (1 : Fin 2) * 5000 + 1 * (j 1).val = _; omega
  refine entry_spec (V c main_arg9) (V c main_arg10) (V c main_arg11) (V c main_v110) (V c main_v132)
    (((cfg1.win 5).blk t).view.emb j) _ _ _ _ _ _ ?_ ?_ ?_ ?_ ?_ ?_
  · show V c main_arg9 (((cfg1.win 0).blk t).view.emb j) = V c main_arg9 (((cfg1.win 5).blk t).view.emb j); rw [h0]
  · show V c main_arg10 (((cfg1.win 1).blk t).view.emb j) = V c main_arg10 (((cfg1.win 5).blk t).view.emb j); rw [h1]
  · show V c main_arg11 (((cfg1.win 2).blk t).view.emb j) = V c main_arg11 (((cfg1.win 5).blk t).view.emb j); rw [h2]
  · show V c main_v110 (((cfg1.win 3).blk t).view.emb j) = V c main_v110 (((cfg1.win 5).blk t).view.emb j); rw [h3]
  · show V c main_v132 (((cfg1.win 4).blk t).view.emb j) = V c main_v132 (((cfg1.win 5).blk t).view.emb j); rw [h4]
  · rw [hr, hc]

/-- An index of the output matrix is in point `t`'s block iff each coordinate is in the block's range on its axis. -/
theorem mem_blk1 (t : Fin cfg1.N) (i : S5000x5000.Idx) :
    i ∈ ((cfg1.win 5).blk t).view.set ↔ ∀ a : Fin 2, win1_5.index t a * S200x5000.size a ≤ (i a).val ∧ (i a).val < win1_5.index t a * S200x5000.size a + S200x5000.size a := by
  show i ∈ ((View.whole main_v133).slice (win1_5.rect t)).set ↔ _
  rw [View.set_slice_whole, Rect.mem_set_unit]
  exact Iff.rfl

/-- The 25 blocks of 200 rows cover the matrix: row `r` lies in the block of point `r / 200`. -/
theorem cover1 (i : S5000x5000.Idx) :
    ∃ t : Fin cfg1.N, (cfg1.win 5).flush t = true ∧ i ∈ ((cfg1.win 5).blk t).view.set := by
  have hi0 : (i 0).val < 5000 := (i 0).isLt
  have hi1 : (i 1).val < 5000 := (i 1).isLt
  obtain ⟨t, ht⟩ := idx_onto1 ⟨(i 0).val / 200, by omega⟩
  have q0 : win1_5.index t (0 : Fin 2) = (i 0).val / 200 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 5000 ≤ (i 1).val ∧ (i 1).val < win1_5.index t (1 : Fin 2) * 5000 + 5000; omega

/-- THE OUTPUT MATRIX after call 1: the adjacency matrix of the five arrays as the call finds them. -/
theorem final1 (c : Dev nD) :
    (dat1 V c).arrAt 5 cfg1.N = adjacency (V c main_arg9) (V c main_arg10) (weighted (V c main_arg11) (V c main_v110) (V c main_v132)) :=
  (dat1 V c).arrAt_eq_of_cover 5 _ (fun t _ => flushed1_eq V c t) (cover1)

end

end Cert.KernelIdeal.Adj

end
-- ==== Proof.KernelRun.lean ====
/- The idealized kernel's run, with its two results named.

   @main is four segments: the host operations before the first call, the first call, the host operations between the
   calls, the second call. Every weakly fair execution runs them to the end without a fault, and the final memory holds,
   at every buffer no scope hides, the contents the segments' fold gives it (`W4`: a stretch of host operations applies
   each operation's function; a call leaves its output array at what its grid points wrote back and everything else as it
   was). Read at the two result buffers and at the eighteen arguments this is the run below: the results at the fold's
   contents, the arguments as launched. -/
import proofs.«163891_j56392920596510_1_alg».proof.Proof.KernelIdealFrame

set_option maxRecDepth 16384

noncomputable section

namespace Cert.KernelIdeal.Adj

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the contents the
    segments' fold gives them and every argument array as launched. -/
theorem run_results : θ_run defs (onTc (τ := τ) (main (F := F))) ⟨m, fun _ => 0, ρ⟩ (fun r => ∀ c : Dev nD,
      r.2.mem ((c.tc : Thread nD τ).loc main_v66) = W4 m ρ c (Proc.devRef .tc main_v66)
      ∧ r.2.mem ((c.tc : Thread nD τ).loc main_v133) = W4 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v66 (by decide)), h c _ (mem_uc main_v133 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.KernelIdeal.Adj

end
-- ==== Proof.KernelValue.lean ====
/- The idealized kernel's two results as adjacency matrices of what was launched.

   The first call's output is written by the first call and by nothing after it (neither the host operations between the
   calls nor the second call touch it), so the final contents of the first result are what the first call's 25 grid points
   wrote back: the adjacency matrix of the five arrays that call found. Three of those — conf, imp, pca — are argument
   arrays no earlier operation writes, hence as launched; the other two are the scatter results the host operations before
   the call computed (kept here as "the contents of that buffer when the call is entered", not opened). The second result
   is the second call's output, read the same way at the second call's entry; its three argument arrays are again as
   launched, since nothing before — host operation or first call — writes them. -/
import proofs.«163891_j56392920596510_1_alg».proof.Proof.KernelBlocks
import proofs.«163891_j56392920596510_1_alg».proof.Proof.KernelRun

set_option maxRecDepth 16384

noncomputable section

namespace Cert.KernelIdeal.Adj

open Cert.KernelIdeal Cert.KernelIdeal.Gen Cert.KernelIdeal.GenP Cert.Adjacency
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Argument arrays through the fold -/

/-- No operation before the first call writes `main_arg6`: the first call finds it as launched. -/
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg7`: the first call finds it as launched. -/
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg8`: the first call finds it as launched. -/
theorem W1_main_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg1`: the first call finds it as launched. -/
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg3`: the first call finds it as launched. -/
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg5`: the first call finds it as launched. -/
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg15`: the first call finds it as launched. -/
theorem W1_main_arg15 (c : Dev nD) : W1 m ρ c (Proc.devRef .tc main_arg15) = m ((c : Thread nD τ).loc main_arg15) :=
  (StableHlo.after_of_forall_not_mem (b := Proc.devRef .tc main_arg15) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg16`: the first call finds it as launched. -/
theorem W1_main_arg16 (c : Dev nD) : W1 m ρ c (Proc.devRef .tc main_arg16) = m ((c : Thread nD τ).loc main_arg16) :=
  (StableHlo.after_of_forall_not_mem (b := Proc.devRef .tc main_arg16) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg17`: the first call finds it as launched. -/
theorem W1_main_arg17 (c : Dev nD) : W1 m ρ c (Proc.devRef .tc main_arg17) = m ((c : Thread nD τ).loc main_arg17) :=
  (StableHlo.after_of_forall_not_mem (b := Proc.devRef .tc main_arg17) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg9`: the first call finds it as launched. -/
theorem W1_main_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg10`: the first call finds it as launched. -/
theorem W1_main_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- No operation before the first call writes `main_arg11`: the first call finds it as launched. -/
theorem W1_main_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- Nor does the first call (it is not its output): after it, `main_arg1` is still as launched. -/
theorem W2_main_arg1 (c : Dev nD) : W2 m ρ c (Proc.devRef .tc main_arg1) = m ((c : Thread nD τ).loc main_arg1) :=
  (W2_of_ne m ρ c main_arg1 (by decide)).trans (W1_main_arg1 m ρ c)

/-- Nor does the first call (it is not its output): after it, `main_arg3` is still as launched. -/
theorem W2_main_arg3 (c : Dev nD) : W2 m ρ c (Proc.devRef .tc main_arg3) = m ((c : Thread nD τ).loc main_arg3) :=
  (W2_of_ne m ρ c main_arg3 (by decide)).trans (W1_main_arg3 m ρ c)

/-- Nor does the first call (it is not its output): after it, `main_arg5` is still as launched. -/
theorem W2_main_arg5 (c : Dev nD) : W2 m ρ c (Proc.devRef .tc main_arg5) = m ((c : Thread nD τ).loc main_arg5) :=
  (W2_of_ne m ρ c main_arg5 (by decide)).trans (W1_main_arg5 m ρ c)

/-- Nor does the first call (it is not its output): after it, `main_arg15` is still as launched. -/
theorem W2_main_arg15 (c : Dev nD) : W2 m ρ c (Proc.devRef .tc main_arg15) = m ((c : Thread nD τ).loc main_arg15) :=
  (W2_of_ne m ρ c main_arg15 (by decide)).trans (W1_main_arg15 m ρ c)

/-- Nor does the first call (it is not its output): after it, `main_arg16` is still as launched. -/
theorem W2_main_arg16 (c : Dev nD) : W2 m ρ c (Proc.devRef .tc main_arg16) = m ((c : Thread nD τ).loc main_arg16) :=
  (W2_of_ne m ρ c main_arg16 (by decide)).trans (W1_main_arg16 m ρ c)

/-- Nor does the first call (it is not its output): after it, `main_arg17` is still as launched. -/
theorem W2_main_arg17 (c : Dev nD) : W2 m ρ c (Proc.devRef .tc main_arg17) = m ((c : Thread nD τ).loc main_arg17) :=
  (W2_of_ne m ρ c main_arg17 (by decide)).trans (W1_main_arg17 m ρ c)

/-- Nor does the first call (it is not its output): after it, `main_arg9` is still as launched. -/
theorem W2_main_arg9 (c : Dev nD) : W2 m ρ c (Proc.devRef .tc main_arg9) = m ((c : Thread nD τ).loc main_arg9) :=
  (W2_of_ne m ρ c main_arg9 (by decide)).trans (W1_main_arg9 m ρ c)

/-- Nor does the first call (it is not its output): after it, `main_arg10` is still as launched. -/
theorem W2_main_arg10 (c : Dev nD) : W2 m ρ c (Proc.devRef .tc main_arg10) = m ((c : Thread nD τ).loc main_arg10) :=
  (W2_of_ne m ρ c main_arg10 (by decide)).trans (W1_main_arg10 m ρ c)

/-- Nor does the first call (it is not its output): after it, `main_arg11` is still as launched. -/
theorem W2_main_arg11 (c : Dev nD) : W2 m ρ c (Proc.devRef .tc main_arg11) = m ((c : Thread nD τ).loc main_arg11) :=
  (W2_of_ne m ρ c main_arg11 (by decide)).trans (W1_main_arg11 m ρ c)

/-- Nor do the operations between the calls: the second call finds `main_arg9` as launched. -/
theorem W3_main_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg9 m ρ c)

/-- Nor do the operations between the calls: the second call finds `main_arg10` as launched. -/
theorem W3_main_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg10 m ρ c)

/-- Nor do the operations between the calls: the second call finds `main_arg11` as launched. -/
theorem W3_main_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg11 m ρ c)

/-! ## The two results -/

/-- The first result: the adjacency matrix of conf, imp, pca as launched and of the two scatter results as the first call
    finds them. -/
theorem result_sr (c : Dev nD) :
    W4 m ρ c (Proc.devRef .tc main_v66)
      = adjacency (m ((c : Thread nD τ).loc main_arg6)) (m ((c : Thread nD τ).loc main_arg7))
          (weighted (m ((c : Thread nD τ).loc main_arg8)) (V1 m ρ c main_v43) (V1 m ρ c main_v65)) := by
  have h43 : W4 m ρ c (Proc.devRef .tc main_v66) = W3 m ρ c (Proc.devRef .tc main_v66) := W4_of_ne m ρ c main_v66 (by decide)
  have h32 : W3 m ρ c (Proc.devRef .tc main_v66) = W2 m ρ c (Proc.devRef .tc main_v66) :=
    StableHlo.after_of_forall_not_mem (b := Proc.devRef .tc main_v66) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have h2 : W2 m ρ c (Proc.devRef .tc main_v66) = (dat0 (V1 m ρ) c).arrAt 5 cfg0.N := W2_arr m ρ c 5
  rw [h43, h32, h2, final0 (V1 m ρ) c]
  show adjacency (W1 m ρ c (Proc.devRef .tc main_arg6)) (W1 m ρ c (Proc.devRef .tc main_arg7))
      (weighted (W1 m ρ c (Proc.devRef .tc main_arg8)) (V1 m ρ c main_v43) (V1 m ρ c main_v65)) = _
  rw [W1_main_arg6, W1_main_arg7, W1_main_arg8]

/-- The second result: the same of the second side's arrays, at the second call's entry. -/
theorem result_tg (c : Dev nD) :
    W4 m ρ c (Proc.devRef .tc main_v133)
      = adjacency (m ((c : Thread nD τ).loc main_arg9)) (m ((c : Thread nD τ).loc main_arg10))
          (weighted (m ((c : Thread nD τ).loc main_arg11)) (V3 m ρ c main_v110) (V3 m ρ c main_v132)) := by
  have h4 : W4 m ρ c (Proc.devRef .tc main_v133) = (dat1 (V3 m ρ) c).arrAt 5 cfg1.N := W4_arr m ρ c 5
  rw [h4, final1 (V3 m ρ) c]
  show adjacency (W3 m ρ c (Proc.devRef .tc main_arg9)) (W3 m ρ c (Proc.devRef .tc main_arg10))
      (weighted (W3 m ρ c (Proc.devRef .tc main_arg11)) (V3 m ρ c main_v110) (V3 m ρ c main_v132)) = _
  rw [W3_main_arg9, W3_main_arg10, W3_main_arg11]

end Cert.KernelIdeal.Adj

end
-- ==== Proof.LibConcatHalves.lean ====
/-
  Two rank-2 arrays joined along one axis, read in either half, and a sum over the joined axis split at the seam.
  Joined by columns, [M, n₁] and [M, n₂] give [M, n₁ + n₂]: column k < n₁ is the first array's column k and column
  n₁ + k is the second array's column k. Joined by rows, [n₁, N] and [n₂, N] give [n₁ + n₂, N] in the same way. A sum
  over the joined axis is therefore the sum over the first piece's coordinates plus the sum over the second's
  (in any commutative monoid: only the order of the terms changes).
-/
import Idealize.ShloMosaic.Lib.ValueIdx
import Idealize.ShloMosaic.Lib.Pipeline.Value

noncomputable section

open scoped BigOperators

namespace Cert.Lib.ConcatHalves

open Idealize.ShloMosaic Idealize.ShloMosaic.ValueIdx

/-- A sum over `Fin T`, `T = n₁ + n₂`, is the sum over the first `n₁` positions plus the sum over the last `n₂`. -/
theorem sum_split {β : Type*} [AddCommMonoid β] {n₁ n₂ T : ℕ} (hT : T = n₁ + n₂) (f : Fin T → β) :
    ∑ k : Fin T, f k = (∑ k : Fin n₁, f ⟨k.val, by omega⟩) + ∑ k : Fin n₂, f ⟨n₁ + k.val, by omega⟩ := by
  subst hT
  rw [Fin.sum_univ_add]
  rfl

section Cols
variable {α : Type} {M n₁ n₂ T : ℕ} (a : (⟨2, ![M, n₁]⟩ : Shape).Idx → α) (b : (⟨2, ![M, n₂]⟩ : Shape).Idx → α)
  (h : Shape.Concatenates [⟨2, ![M, n₁]⟩, ⟨2, ![M, n₂]⟩] ⟨2, ![M, T]⟩ 1)

/-- Joined by columns, a column of the first half is the first array's. -/
theorem cols_left (p : Fin M) (k : Fin n₁) (k' : Fin T) (hk : k'.val = k.val) :
    concatenate ⟨2, ![M, T]⟩ 1 [⟨⟨2, ![M, n₁]⟩, a⟩, ⟨⟨2, ![M, n₂]⟩, b⟩] h (ix2 p k') = a (ix2 p k) :=
  concatenate_pair_apply_left 1 a b h (ix2 p k') rfl (ix2 p k)
    (fun c => match c with | ⟨0, _⟩ => rfl | ⟨1, _⟩ => hk.symm)

/-- Joined by columns, column `n₁ + k` is the second array's column `k`. -/
theorem cols_right (p : Fin M) (k : Fin n₂) (k' : Fin T) (hk : k'.val = n₁ + k.val) :
    concatenate ⟨2, ![M, T]⟩ 1 [⟨⟨2, ![M, n₁]⟩, a⟩, ⟨⟨2, ![M, n₂]⟩, b⟩] h (ix2 p k') = b (ix2 p k) :=
  concatenate_pair_apply_right 1 a b h (ix2 p k') rfl rfl (ix2 p k)
    (fun c hc => match c, hc with | ⟨0, _⟩, _ => rfl | ⟨1, _⟩, hc => absurd rfl hc)
    (by show k.val + n₁ = k'.val; omega)

/-- The same with the column spelt by its position (the form a sum over the first half meets). -/
theorem cols_left' (p : Fin M) (k : Fin n₁) (hk : k.val < T) :
    concatenate ⟨2, ![M, T]⟩ 1 [⟨⟨2, ![M, n₁]⟩, a⟩, ⟨⟨2, ![M, n₂]⟩, b⟩] h (ix2 p (⟨k.val, hk⟩ : Fin T)) = a (ix2 p k) :=
  cols_left a b h p k ⟨k.val, hk⟩ rfl

/-- The same with the column spelt by its position (the form a sum over the second half meets). -/
theorem cols_right' (p : Fin M) (k : Fin n₂) (hk : n₁ + k.val < T) :
    concatenate ⟨2, ![M, T]⟩ 1 [⟨⟨2, ![M, n₁]⟩, a⟩, ⟨⟨2, ![M, n₂]⟩, b⟩] h (ix2 p (⟨n₁ + k.val, hk⟩ : Fin T)) = b (ix2 p k) :=
  cols_right a b h p k ⟨n₁ + k.val, hk⟩ rfl

end Cols

section Rows
variable {α : Type} {N n₁ n₂ T : ℕ} (u : (⟨2, ![n₁, N]⟩ : Shape).Idx → α) (v : (⟨2, ![n₂, N]⟩ : Shape).Idx → α)
  (h : Shape.Concatenates [⟨2, ![n₁, N]⟩, ⟨2, ![n₂, N]⟩] ⟨2, ![T, N]⟩ 0)

/-- Joined by rows, a row of the first half is the first array's. -/
theorem rows_top (k : Fin n₁) (k' : Fin T) (hk : k'.val = k.val) (q : Fin N) :
    concatenate ⟨2, ![T, N]⟩ 0 [⟨⟨2, ![n₁, N]⟩, u⟩, ⟨⟨2, ![n₂, N]⟩, v⟩] h (ix2 k' q) = u (ix2 k q) :=
  concatenate_pair_apply_left 0 u v h (ix2 k' q) rfl (ix2 k q)
    (fun c => match c with | ⟨0, _⟩ => hk.symm | ⟨1, _⟩ => rfl)

/-- Joined by rows, row `n₁ + k` is the second array's row `k`. -/
theorem rows_bottom (k : Fin n₂) (k' : Fin T) (hk : k'.val = n₁ + k.val) (q : Fin N) :
    concatenate ⟨2, ![T, N]⟩ 0 [⟨⟨2, ![n₁, N]⟩, u⟩, ⟨⟨2, ![n₂, N]⟩, v⟩] h (ix2 k' q) = v (ix2 k q) :=
  concatenate_pair_apply_right 0 u v h (ix2 k' q) rfl rfl (ix2 k q)
    (fun c hc => match c, hc with | ⟨0, _⟩, hc => absurd rfl hc | ⟨1, _⟩, _ => rfl)
    (by show k.val + n₁ = k'.val; omega)

/-- The same with the row spelt by its position. -/
theorem rows_top' (k : Fin n₁) (hk : k.val < T) (q : Fin N) :
    concatenate ⟨2, ![T, N]⟩ 0 [⟨⟨2, ![n₁, N]⟩, u⟩, ⟨⟨2, ![n₂, N]⟩, v⟩] h (ix2 (⟨k.val, hk⟩ : Fin T) q) = u (ix2 k q) :=
  rows_top u v h k ⟨k.val, hk⟩ rfl q

/-- The same with the row spelt by its position. -/
theorem rows_bottom' (k : Fin n₂) (hk : n₁ + k.val < T) (q : Fin N) :
    concatenate ⟨2, ![T, N]⟩ 0 [⟨⟨2, ![n₁, N]⟩, u⟩, ⟨⟨2, ![n₂, N]⟩, v⟩] h (ix2 (⟨n₁ + k.val, hk⟩ : Fin T) q) = v (ix2 k q) :=
  rows_bottom u v h k ⟨n₁ + k.val, hk⟩ rfl q

end Rows

end Cert.Lib.ConcatHalves

end
-- ==== Proof.PairArray.lean ====
/- The pair array of the diagonal scatter: two copies of one vector of 5000 words laid side by side as the two columns
   of a 5000 × 2 array. Entry (r, a) is the vector's entry r, in either column: each copy is the vector viewed as a
   5000 × 1 column, and joining two one-column arrays by columns puts the first at column 0 and the second at column 1. -/
import proofs.«163891_j56392920596510_1_alg».proof.Proof.Spec
import proofs.«163891_j56392920596510_1_alg».proof.Proof.LibConcatHalves

noncomputable section

namespace Cert.Adjacency

open Idealize.ShloMosaic Idealize.ShloMosaic.ValueIdx

/-- Two copies of a vector `w` laid side by side as the columns of a 5000 × 2 array: entry (r, a) is `w r`. -/
theorem two_columns_apply {α : Type} (w : SU.Idx → α) (hb : SU.BroadcastsInDim SC (![0] : Fin 1 → Fin SC.rank))
    (hc : Shape.Concatenates [SC, SC] SI 1) (r : Fin 5000) (a : Fin 2) :
    concatenate SI 1 [⟨SC, broadcastInDim SC ![0] hb w⟩, ⟨SC, broadcastInDim SC ![0] hb w⟩] hc (ix2 r a) = w (ix1 r) := by
  have hcol : ∀ u : Fin 1, broadcastInDim SC ![0] hb w (ix2 r u) = w (ix1 r) := fun u =>
    broadcastInDim_apply ![0] hb w (ix2 r u) (ix1 r) (fun ax => by
      match ax with
      | ⟨0, _⟩ => rfl)
  match a with
  | ⟨0, _⟩ =>
    exact (Cert.Lib.ConcatHalves.cols_left (broadcastInDim SC ![0] hb w) (broadcastInDim SC ![0] hb w) hc r (0 : Fin 1) (0 : Fin 2) rfl).trans (hcol 0)
  | ⟨1, _⟩ =>
    exact (Cert.Lib.ConcatHalves.cols_right (broadcastInDim SC ![0] hb w) (broadcastInDim SC ![0] hb w) hc r (0 : Fin 1) (1 : Fin 2) rfl).trans (hcol 0)

/-- The pair array built from the wrapped counting vector holds the word `r` in both columns of row `r`. -/
theorem count_pairs_apply (hb0 : S0.BroadcastsInDim SU (![] : Fin 0 → Fin SU.rank))
    (hb : SU.BroadcastsInDim SC (![0] : Fin 1 → Fin SC.rank)) (hc : Shape.Concatenates [SC, SC] SI 1) (r : Fin 5000) (a : Fin 2) :
    concatenate SI 1
      [⟨SC, broadcastInDim SC ![0] hb (select (cmpi .slt (iotaInDim SU 32 0) (broadcastInDim SU ![] hb0 (constantI S0 32 0#32)))
        (addi (iotaInDim SU 32 0) (broadcastInDim SU ![] hb0 (constantI S0 32 5000#32))) (iotaInDim SU 32 0))⟩,
       ⟨SC, broadcastInDim SC ![0] hb (select (cmpi .slt (iotaInDim SU 32 0) (broadcastInDim SU ![] hb0 (constantI S0 32 0#32)))
        (addi (iotaInDim SU 32 0) (broadcastInDim SU ![] hb0 (constantI S0 32 5000#32))) (iotaInDim SU 32 0))⟩] hc (ix2 r a)
      = BitVec.ofNat 32 r.val :=
  (two_columns_apply _ hb hc r a).trans (wrapped_count_apply hb0 r)

end Cert.Adjacency

end
-- ==== Proof.RefValue.lean ====
/- The idealized reference's two results as adjacency matrices.

   On each side the reference forms the masked weighted combination conf · imp · mix as one 5000 × 5000 matrix and then
   scatters the constant 1 into it at the index pairs (r, r), r = 0 … 4999. The pairs are the counting vector (after
   the wrap of negative indices, which leaves it as it is) laid twice as the columns of a 5000 × 2 array; the scatter adds
   to entry (p, q) the updates whose pair is (p, q): one 1 when p = q, nothing otherwise. So the result is the
   adjacency matrix of conf, imp and mix — where mix, the weighted sum of pca and the two scatter results, is kept as
   the one function of the arguments the reference's run names it by, and is not opened here. -/
import proofs.«163891_j56392920596510_1_alg».proof.Proof.Gen.ReferenceIdeal.Run
import proofs.«163891_j56392920596510_1_alg».proof.Proof.Spec
import proofs.«163891_j56392920596510_1_alg».proof.Proof.PairArray
import Idealize.ShloMosaic.Lib.IdealHost

set_option maxRecDepth 16384

noncomputable section

namespace Cert.ReferenceIdeal.Adj

open Cert.ReferenceIdeal Cert.ReferenceIdeal.Gen Cert.ReferenceIdeal.Value Cert.Adjacency
open Idealize.ShloMosaic Idealize.ShloMosaic.TcCoe Idealize.ShloMosaic.ValueIdx Idealize.SL.Sem Idealize.ShloMosaic.StableHlo

/-- THE DIAGONAL SCATTER: ones added at the pairs (r, r) of the counting vector turn conf · imp · mix into the adjacency
    matrix. -/
theorem scatter_diag (conf imp mix : SE.Idx → EReal) :
    Host.scatterAdd scatter_S5000x5000_S5000x2_S5000_n_01_01_1 (mulf (mulf conf imp) mix)
        (concatenate S5000x2 1
          [⟨S5000x1, broadcastInDim S5000x1 ![0] bcast_S5000_S5000x1_0 (select (cmpi .slt (iotaInDim S5000 32 0) (broadcastInDim S5000 ![] bcast_S_S5000 (constantI S_ 32 0#32))) (addi (iotaInDim S5000 32 0) (broadcastInDim S5000 ![] bcast_S_S5000 (constantI S_ 32 5000#32))) (iotaInDim S5000 32 0))⟩,
           ⟨S5000x1, broadcastInDim S5000x1 ![0] bcast_S5000_S5000x1_0 (select (cmpi .slt (iotaInDim S5000 32 0) (broadcastInDim S5000 ![] bcast_S_S5000 (constantI S_ 32 0#32))) (addi (iotaInDim S5000 32 0) (broadcastInDim S5000 ![] bcast_S_S5000 (constantI S_ 32 5000#32))) (iotaInDim S5000 32 0))⟩]
          concatenates_S5000x1_S5000x1_S5000x2_d1)
        (broadcastInDim S5000 ![] bcast_S_S5000 (constant (F := Ideal) S_ .f32 0x3F800000#32))
      = adjacency conf imp mix := by
  funext i
  obtain ⟨p, q, rfl⟩ : ∃ (p q : Fin 5000), i = ix2 p q := ⟨i 0, i 1, eq_ix2 i⟩
  show Ideal.hostScatterAdd (pairDims Gen.scatter_S5000x5000_S5000x2_S5000_n_01_01_1_wf) _ _ _ (ix2 p q) = _
  refine (scatter_ones_apply Gen.scatter_S5000x5000_S5000x2_S5000_n_01_01_1_wf _ _
    (fun r a => count_pairs_apply bcast_S_S5000 bcast_S5000_S5000x1_0 concatenates_S5000x1_S5000x1_S5000x2_d1 r a) _
    (fun _ => Ideal.ofBits_one_f32) p q).trans ?_
  rfl

variable (L : Valuation τ sig (Elt Ideal))

/-- The first result: the adjacency matrix of the first side's conf, imp and mix. -/
theorem result_sr :
    val5 L (Proc.devRef .tc main_v91)
      = adjacency (L (Proc.devRef .tc main_arg6)) (L (Proc.devRef .tc main_arg7)) (res_main_v74 L) := by
  refine (val5_main_v91 L).trans ?_
  unfold res_main_v76
  exact scatter_diag _ _ _

/-- The second result: the same of the second side's. -/
theorem result_tg :
    val5 L (Proc.devRef .tc main_v183)
      = adjacency (L (Proc.devRef .tc main_arg9)) (L (Proc.devRef .tc main_arg10)) (res_main_v166 L) := by
  refine (val5_main_v183 L).trans ?_
  unfold res_main_v168
  exact scatter_diag _ _ _

end Cert.ReferenceIdeal.Adj

end
-- ==== Proof.Bridge.lean ====
/- The one place where the two programs' host computations meet.

   Before each call the kernel program computes, by plain array operations, two 5000 × 5000 matrices: the scatter of the
   triples' translation scores and the scatter of their relation weights, both at the (head, tail) positions. The
   reference computes the same two matrices by the same operations in the same order — the triples' rows gathered
   from the embedding tables, |head + relation − tail| summed along a row and scaled, one minus that, scattered; the
   relation weights gathered and scattered — and then forms w₃ · pca + w₃ · (first) + w₄ · (second). So, from memories
   that agree on the arguments, the kernel program's weighted combination of pca and ITS two matrices (as its call finds
   them) is the function of the arguments the reference's run names for that combination.

   Nothing about gathers, sums or scatters is used: each side's chain of operations is read back to one term of the
   argument arrays, the reference's reads of its memory are replaced by the kernel's (the memories agree), and the two
   terms are then the same term. The only care is in the reading back: the operation that lays the head and tail index
   columns side by side takes its two operands inside a list, where they cannot be rewritten, so it is given a name first
   and its operands are rewritten as that name's arguments. -/
import proofs.«163891_j56392920596510_1_alg».proof.Proof.KernelValue
import proofs.«163891_j56392920596510_1_alg».proof.Proof.Gen.ReferenceIdeal.Run
import proofs.«163891_j56392920596510_1_alg».proof.Proof.Spec

set_option maxRecDepth 16384

noncomputable section

namespace Cert.Bridge

open Idealize.ShloMosaic Idealize.ShloMosaic.TcCoe Idealize.SL.Sem Idealize.ShloMosaic.StableHlo Cert.Adjacency

/-- Two index columns of 200000 entries laid side by side (in the kernel program's spelling of the shapes). -/
def pairColumns (a b : Cert.KernelIdeal.S200000x1.Idx → BitVec 32) : Cert.KernelIdeal.S200000x2.Idx → BitVec 32 :=
  concatenate Cert.KernelIdeal.S200000x2 1 [⟨Cert.KernelIdeal.S200000x1, a⟩, ⟨Cert.KernelIdeal.S200000x1, b⟩] Cert.KernelIdeal.Gen.concatenates_S200000x1_S200000x1_S200000x2_d1

/-- The kernel program's host operation that does so is that function. -/
theorem pair_fn_eq : ((fun a b => concatenate Cert.KernelIdeal.S200000x2 1 [⟨Cert.KernelIdeal.S200000x1, a⟩, ⟨Cert.KernelIdeal.S200000x1, b⟩] Cert.KernelIdeal.Gen.concatenates_S200000x1_S200000x1_S200000x2_d1) :
      (⟨Cert.KernelIdeal.S200000x1, .i32⟩ : BufTy).Contents (Elt Ideal) → (⟨Cert.KernelIdeal.S200000x1, .i32⟩ : BufTy).Contents (Elt Ideal) → (⟨Cert.KernelIdeal.S200000x2, .i32⟩ : BufTy).Contents (Elt Ideal)) = pairColumns := rfl

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

set_option maxHeartbeats 1000000 in
/-- FIRST SIDE: the kernel program's combination of pca and the two matrices its first call finds is the reference's
    named combination, when the memories agree on the seven arguments it depends on. -/
theorem mix_sr (c : Dev Cert.KernelIdeal.nD) (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    weighted (m ((c.tc : Thread Cert.KernelIdeal.nD Cert.KernelIdeal.τ).loc Cert.KernelIdeal.main_arg8)) (Cert.KernelIdeal.GenP.V1 m ρ c Cert.KernelIdeal.main_v43) (Cert.KernelIdeal.GenP.V1 m ρ c Cert.KernelIdeal.main_v65)
      = (Cert.ReferenceIdeal.Value.res_main_v74 (launchContents m' c) : SE.Idx → EReal) := by
  have e0 : m' (c, Proc.devRef .tc Cert.ReferenceIdeal.main_arg0) = m ((c.tc : Thread Cert.KernelIdeal.nD Cert.KernelIdeal.τ).loc Cert.KernelIdeal.main_arg0) := h0
  have e2 : m' (c, Proc.devRef .tc Cert.ReferenceIdeal.main_arg2) = m ((c.tc : Thread Cert.KernelIdeal.nD Cert.KernelIdeal.τ).loc Cert.KernelIdeal.main_arg2) := h2
  have e4 : m' (c, Proc.devRef .tc Cert.ReferenceIdeal.main_arg4) = m ((c.tc : Thread Cert.KernelIdeal.nD Cert.KernelIdeal.τ).loc Cert.KernelIdeal.main_arg4) := h4
  have e12 : m' (c, Proc.devRef .tc Cert.ReferenceIdeal.main_arg12) = m ((c.tc : Thread Cert.KernelIdeal.nD Cert.KernelIdeal.τ).loc Cert.KernelIdeal.main_arg12) := h12
  have e13 : m' (c, Proc.devRef .tc Cert.ReferenceIdeal.main_arg13) = m ((c.tc : Thread Cert.KernelIdeal.nD Cert.KernelIdeal.τ).loc Cert.KernelIdeal.main_arg13) := h13
  have e14 : m' (c, Proc.devRef .tc Cert.ReferenceIdeal.main_arg14) = m ((c.tc : Thread Cert.KernelIdeal.nD Cert.KernelIdeal.τ).loc Cert.KernelIdeal.main_arg14) := h14
  rw [weighted_eq_pointwise Cert.KernelIdeal.Gen.bcast_S_S5000x5000]
  unfold Cert.ReferenceIdeal.Value.res_main_v74
  refine congrArg₂ (addf (F := Ideal) (s := SE) (φ := .f32)) (congrArg₂ (addf (F := Ideal) (s := SE) (φ := .f32))
    (congrArg₂ (mulf (F := Ideal) (s := SE) (φ := .f32)) rfl ?_) (congrArg₂ (mulf (F := Ideal) (s := SE) (φ := .f32)) rfl ?_))
    (congrArg₂ (mulf (F := Ideal) (s := SE) (φ := .f32)) rfl ?_)
  · exact h8.symm
  · dsimp only [Cert.KernelIdeal.GenP.V1, Cert.KernelIdeal.GenP.W1, Cert.KernelIdeal.GenP.W0, launchContents]
    simp only [Cert.KernelIdeal.Gen.hostOps0]
    rw [pair_fn_eq]
    after_results_simp
    generalize m' (c, Proc.devRef .tc Cert.ReferenceIdeal.main_arg0) = x0 at e0 ⊢
    subst e0
    generalize m' (c, Proc.devRef .tc Cert.ReferenceIdeal.main_arg2) = x2 at e2 ⊢
    subst e2
    generalize m' (c, Proc.devRef .tc Cert.ReferenceIdeal.main_arg12) = x12 at e12 ⊢
    subst e12
    generalize m' (c, Proc.devRef .tc Cert.ReferenceIdeal.main_arg13) = x13 at e13 ⊢
    subst e13
    generalize m' (c, Proc.devRef .tc Cert.ReferenceIdeal.main_arg14) = x14 at e14 ⊢
    subst e14
    unfold pairColumns
    rfl
  · dsimp only [Cert.KernelIdeal.GenP.V1, Cert.KernelIdeal.GenP.W1, Cert.KernelIdeal.GenP.W0, launchContents]
    simp only [Cert.KernelIdeal.Gen.hostOps0]
    rw [pair_fn_eq]
    after_results_simp
    generalize m' (c, Proc.devRef .tc Cert.ReferenceIdeal.main_arg4) = x4 at e4 ⊢
    subst e4
    generalize m' (c, Proc.devRef .tc Cert.ReferenceIdeal.main_arg12) = x12 at e12 ⊢
    subst e12
    generalize m' (c, Proc.devRef .tc Cert.ReferenceIdeal.main_arg13) = x13 at e13 ⊢
    subst e13
    generalize m' (c, Proc.devRef .tc Cert.ReferenceIdeal.main_arg14) = x14 at e14 ⊢
    subst e14
    unfold pairColumns
    rfl

set_option maxHeartbeats 1000000 in
/-- SECOND SIDE: the same at the second call's entry. The arguments it depends on are written by nothing before that call
    (host operation or first call), so the second stretch of host operations reads them as launched. -/
theorem mix_tg (c : Dev Cert.KernelIdeal.nD) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    weighted (m ((c.tc : Thread Cert.KernelIdeal.nD Cert.KernelIdeal.τ).loc Cert.KernelIdeal.main_arg11)) (Cert.KernelIdeal.GenP.V3 m ρ c Cert.KernelIdeal.main_v110) (Cert.KernelIdeal.GenP.V3 m ρ c Cert.KernelIdeal.main_v132)
      = (Cert.ReferenceIdeal.Value.res_main_v166 (launchContents m' c) : SE.Idx → EReal) := by
  have e1 : m' (c, Proc.devRef .tc Cert.ReferenceIdeal.main_arg1) = m ((c.tc : Thread Cert.KernelIdeal.nD Cert.KernelIdeal.τ).loc Cert.KernelIdeal.main_arg1) := h1
  have e3 : m' (c, Proc.devRef .tc Cert.ReferenceIdeal.main_arg3) = m ((c.tc : Thread Cert.KernelIdeal.nD Cert.KernelIdeal.τ).loc Cert.KernelIdeal.main_arg3) := h3
  have e5 : m' (c, Proc.devRef .tc Cert.ReferenceIdeal.main_arg5) = m ((c.tc : Thread Cert.KernelIdeal.nD Cert.KernelIdeal.τ).loc Cert.KernelIdeal.main_arg5) := h5
  have e15 : m' (c, Proc.devRef .tc Cert.ReferenceIdeal.main_arg15) = m ((c.tc : Thread Cert.KernelIdeal.nD Cert.KernelIdeal.τ).loc Cert.KernelIdeal.main_arg15) := h15
  have e16 : m' (c, Proc.devRef .tc Cert.ReferenceIdeal.main_arg16) = m ((c.tc : Thread Cert.KernelIdeal.nD Cert.KernelIdeal.τ).loc Cert.KernelIdeal.main_arg16) := h16
  have e17 : m' (c, Proc.devRef .tc Cert.ReferenceIdeal.main_arg17) = m ((c.tc : Thread Cert.KernelIdeal.nD Cert.KernelIdeal.τ).loc Cert.KernelIdeal.main_arg17) := h17
  rw [weighted_eq_pointwise Cert.KernelIdeal.Gen.bcast_S_S5000x5000]
  unfold Cert.ReferenceIdeal.Value.res_main_v166
  refine congrArg₂ (addf (F := Ideal) (s := SE) (φ := .f32)) (congrArg₂ (addf (F := Ideal) (s := SE) (φ := .f32))
    (congrArg₂ (mulf (F := Ideal) (s := SE) (φ := .f32)) rfl ?_) (congrArg₂ (mulf (F := Ideal) (s := SE) (φ := .f32)) rfl ?_))
    (congrArg₂ (mulf (F := Ideal) (s := SE) (φ := .f32)) rfl ?_)
  · exact h11.symm
  · dsimp only [Cert.KernelIdeal.GenP.V3, Cert.KernelIdeal.GenP.W3, launchContents]
    simp only [Cert.KernelIdeal.Gen.hostOps1]
    rw [pair_fn_eq]
    after_results_simp
    simp only [Cert.KernelIdeal.Adj.W2_main_arg1 m ρ c, Cert.KernelIdeal.Adj.W2_main_arg3 m ρ c, Cert.KernelIdeal.Adj.W2_main_arg15 m ρ c, Cert.KernelIdeal.Adj.W2_main_arg16 m ρ c, Cert.KernelIdeal.Adj.W2_main_arg17 m ρ c]
    generalize m' (c, Proc.devRef .tc Cert.ReferenceIdeal.main_arg1) = x1 at e1 ⊢
    subst e1
    generalize m' (c, Proc.devRef .tc Cert.ReferenceIdeal.main_arg3) = x3 at e3 ⊢
    subst e3
    generalize m' (c, Proc.devRef .tc Cert.ReferenceIdeal.main_arg15) = x15 at e15 ⊢
    subst e15
    generalize m' (c, Proc.devRef .tc Cert.ReferenceIdeal.main_arg16) = x16 at e16 ⊢
    subst e16
    generalize m' (c, Proc.devRef .tc Cert.ReferenceIdeal.main_arg17) = x17 at e17 ⊢
    subst e17
    unfold pairColumns
    rfl
  · dsimp only [Cert.KernelIdeal.GenP.V3, Cert.KernelIdeal.GenP.W3, launchContents]
    simp only [Cert.KernelIdeal.Gen.hostOps1]
    rw [pair_fn_eq]
    after_results_simp
    simp only [Cert.KernelIdeal.Adj.W2_main_arg5 m ρ c, Cert.KernelIdeal.Adj.W2_main_arg15 m ρ c, Cert.KernelIdeal.Adj.W2_main_arg16 m ρ c, Cert.KernelIdeal.Adj.W2_main_arg17 m ρ c]
    generalize m' (c, Proc.devRef .tc Cert.ReferenceIdeal.main_arg5) = x5 at e5 ⊢
    subst e5
    generalize m' (c, Proc.devRef .tc Cert.ReferenceIdeal.main_arg15) = x15 at e15 ⊢
    subst e15
    generalize m' (c, Proc.devRef .tc Cert.ReferenceIdeal.main_arg16) = x16 at e16 ⊢
    subst e16
    generalize m' (c, Proc.devRef .tc Cert.ReferenceIdeal.main_arg17) = x17 at e17 ⊢
    subst e17
    unfold pairColumns
    rfl

end Cert.Bridge

end
-- ==== Proof.lean ====
/- The proof of `Cert.Claim` for a kernel that builds two knowledge-graph adjacency matrices.

   For each of two graphs the programs form, over a 5000 × 5000 matrix, conf · imp · (w₃ · pca + w₃ · tv + w₄ · att) and
   put 1 on the diagonal, where tv and att are scatters (at the triples' head and tail positions) of the triples'
   translation scores and relation weights. The kernel program computes tv and att with plain array operations and then
   runs a 25-point grid over blocks of 200 rows, adding the diagonal as the number made from "row = column"; the reference
   does everything with plain array operations and adds the diagonal by scattering ones at the pairs (r, r).

   * The three frames: the two kernel programs' by their frame certificates (Proof/KernelFrame.lean and
     Proof/KernelIdealFrame.lean), the reference's by its run with the results dropped.
   * The idealization rewrote nothing, so there is nothing to preserve.
   * The two results agree on the extended reals: the kernel program's are the adjacency matrices of what was launched
     (Proof/KernelBlocks.lean: blocks to matrices; Proof/KernelRun.lean and Proof/KernelValue.lean: the run and its two result
     buffers), the reference's are the adjacency matrices too (Proof/RefValue.lean, over Proof/Spec.lean and
     Proof/PairArray.lean: the scatter of ones), and the two programs' host computations of tv and att are one function of
     the arguments (Proof/Bridge.lean). No finiteness is used: x + 0 = x and the order of the operations are all that is
     needed, and both hold at the infinities. -/
import proofs.«163891_j56392920596510_1_alg».proof.Defs
import proofs.«163891_j56392920596510_1_alg».proof.Proof.Gen.Kernel
import proofs.«163891_j56392920596510_1_alg».proof.Proof.Gen.KernelIdeal
import proofs.«163891_j56392920596510_1_alg».proof.Proof.Gen.ReferenceIdeal
import proofs.«163891_j56392920596510_1_alg».proof.Proof.Gen.Pre_finite_inputs
import proofs.«163891_j56392920596510_1_alg».proof.Proof.KernelFrame
import proofs.«163891_j56392920596510_1_alg».proof.Proof.KernelIdealFrame
import proofs.«163891_j56392920596510_1_alg».proof.Proof.Gen.ReferenceIdeal.Run
import proofs.«163891_j56392920596510_1_alg».proof.Proof.KernelValue
import proofs.«163891_j56392920596510_1_alg».proof.Proof.RefValue
import proofs.«163891_j56392920596510_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.Adjacency

theorem frame_kernel : Cert.frame_Kernel := fun m ρ _ => Cert.Kernel.GenP.frame m ρ

theorem frame_kernelIdeal : Cert.frame_KernelIdeal := fun m ρ _ => Cert.KernelIdeal.GenP.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

set_option maxHeartbeats 1000000 in
/-- From memories that agree on the eighteen arguments both idealized programs run to the end, and each of the two results
    is, on both sides, the adjacency matrix of the launched conf, imp, pca and of the kernel program's own two scatter
    matrices — which the reference's are (Proof/Bridge.lean). -/
theorem algebraic : Cert.algebraic_KernelIdeal_ReferenceIdeal := by
  intro m ρ m' ρ' _ hagree
  refine ⟨fun c => adjacency (m ((c.tc : Thread Cert.KernelIdeal.nD Cert.KernelIdeal.τ).loc Cert.KernelIdeal.main_arg6)) (m ((c.tc : Thread Cert.KernelIdeal.nD Cert.KernelIdeal.τ).loc Cert.KernelIdeal.main_arg7))
            (weighted (m ((c.tc : Thread Cert.KernelIdeal.nD Cert.KernelIdeal.τ).loc Cert.KernelIdeal.main_arg8)) (Cert.KernelIdeal.GenP.V1 m ρ c Cert.KernelIdeal.main_v43) (Cert.KernelIdeal.GenP.V1 m ρ c Cert.KernelIdeal.main_v65)),
          fun c => adjacency (m ((c.tc : Thread Cert.KernelIdeal.nD Cert.KernelIdeal.τ).loc Cert.KernelIdeal.main_arg9)) (m ((c.tc : Thread Cert.KernelIdeal.nD Cert.KernelIdeal.τ).loc Cert.KernelIdeal.main_arg10))
            (weighted (m ((c.tc : Thread Cert.KernelIdeal.nD Cert.KernelIdeal.τ).loc Cert.KernelIdeal.main_arg11)) (Cert.KernelIdeal.GenP.V3 m ρ c Cert.KernelIdeal.main_v110) (Cert.KernelIdeal.GenP.V3 m ρ c Cert.KernelIdeal.main_v132)),
          ?_, ?_⟩
  · exact (θ_run Cert.KernelIdeal.defs _ _).mono
      (fun r h c => ⟨(h c).1.trans (Cert.KernelIdeal.Adj.result_sr m ρ c), (h c).2.1.trans (Cert.KernelIdeal.Adj.result_tg m ρ c), (h c).2.2⟩)
      (Cert.KernelIdeal.Adj.run_results (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17⟩ := hagree c
    refine ⟨(h c).1.trans ?_, (h c).2.1.trans ?_, (h c).2.2⟩
    · refine ((Cert.ReferenceIdeal.Value.val5_main_v91 (launchContents m' c)).symm.trans (Cert.ReferenceIdeal.Adj.result_sr (launchContents m' c))).trans ?_
      rw [← Cert.Bridge.mix_sr m ρ m' c a0 a2 a4 a8 a12 a13 a14]
      show adjacency (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) _ = _
      rw [a6, a7]
    · refine ((Cert.ReferenceIdeal.Value.val5_main_v183 (launchContents m' c)).symm.trans (Cert.ReferenceIdeal.Adj.result_tg (launchContents m' c))).trans ?_
      rw [← Cert.Bridge.mix_tg m ρ m' c a1 a3 a5 a11 a15 a16 a17]
      show adjacency (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) _ = _
      rw [a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
